-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S819200x128 : Shape := ⟨2, ![819200, 128]⟩
abbrev S204800x128 : Shape := ⟨2, ![204800, 128]⟩
abbrev S2048000 : Shape := ⟨1, ![2048000]⟩
abbrev S409600 : Shape := ⟨1, ![409600]⟩
abbrev S40960 : Shape := ⟨1, ![40960]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S819200x128 : S_.BroadcastsInDim S819200x128 (![] : Fin 0 → Fin S819200x128.rank)
  reducesTo_S819200x128_S_d0_1 : S819200x128.ReducesTo [0, 1] S_
  h_S_ : 0 < S_.numel
  bcast_S_S204800x128 : S_.BroadcastsInDim S204800x128 (![] : Fin 0 → Fin S204800x128.rank)
  reducesTo_S204800x128_S_d0_1 : S204800x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg13 : FVec F S64 .f32) (main_v33 : IVec S_ 1) : IVec S_ 1 :=
  let main_v34 : FVec F S64 .f32 := Host.absf main_arg13
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg10 : FVec F S128 .f32) (main_arg11 : FVec F S128x64 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg11
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg12
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg13 main_v33

def fn {F : FTy → Type} [FloatOps F] (main_arg0 : FVec F S819200x128 .f32) (main_arg1 : FVec F S204800x128 .f32) (main_arg2 : IVec S2048000 32) (main_arg3 : IVec S2048000 32) (main_arg4 : IVec S409600 32) (main_arg5 : IVec S409600 32) (main_arg6 : IVec S40960 32) (main_arg7 : IVec S40960 32) (main_arg8 : FVec F S128x128 .f32) (main_arg9 : FVec F S128x128 .f32) (main_arg10 : FVec F S128 .f32) (main_arg11 : FVec F S128x64 .f32) (main_arg12 : FVec F S128x64 .f32) (main_arg13 : FVec F S64 .f32) : IVec S_ 1 :=
  let main_v0 : FVec F S819200x128 .f32 := Host.absf main_arg0
  let main_cst : FVec F S_ .f32 := constant S_ .f32 0x7F800000#32
  let main_v1 : FVec F S819200x128 .f32 := broadcastInDim S819200x128 ![] bcast_S_S819200x128 main_cst
  let main_v2 : IVec S819200x128 1 := cmpf .olt main_v0 main_v1
  let main_c : IVec S_ 1 := constantI S_ 1 1#1
  let main_v3 : IVec S_ 1 := (fun x v => Host.reduce IntOp.andi x v reducesTo_S819200x128_S_d0_1 h_S_) main_v2 main_c
  let main_v4 : FVec F S204800x128 .f32 := Host.absf main_arg1
  let main_cst_0 : FVec F S_ .f32 := constant S_ .f32 0x7F800000#32
  let main_v5 : FVec F S204800x128 .f32 := broadcastInDim S204800x128 ![] bcast_S_S204800x128 main_cst_0
  let main_v6 : IVec S204800x128 1 := cmpf .olt main_v4 main_v5
  let main_c_1 : IVec S_ 1 := constantI S_ 1 1#1
  let main_v7 : IVec S_ 1 := (fun x v => Host.reduce IntOp.andi x v reducesTo_S204800x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_v13 main_v16
-- ==== Kernel.lean ====
abbrev S819200x128 : Shape := ⟨2, ![819200, 128]⟩
abbrev S204800x128 : Shape := ⟨2, ![204800, 128]⟩
abbrev S2048000 : Shape := ⟨1, ![2048000]⟩
abbrev S409600 : Shape := ⟨1, ![409600]⟩
abbrev S40960 : Shape := ⟨1, ![40960]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S2048000x1 : Shape := ⟨2, ![2048000, 1]⟩
abbrev S2048000x128 : Shape := ⟨2, ![2048000, 128]⟩
abbrev S204800 : Shape := ⟨1, ![204800]⟩
abbrev S204800x1 : Shape := ⟨2, ![204800, 1]⟩
abbrev S1x128 : Shape := ⟨2, ![1, 128]⟩
abbrev S4096x128 : Shape := ⟨2, ![4096, 128]⟩
abbrev S40960x128 : Shape := ⟨2, ![40960, 128]⟩
abbrev S409600x1 : Shape := ⟨2, ![409600, 1]⟩
abbrev S409600x128 : Shape := ⟨2, ![409600, 128]⟩
abbrev S40960x1 : Shape := ⟨2, ![40960, 1]⟩
abbrev S1x64 : Shape := ⟨2, ![1, 64]⟩
abbrev S40960x64 : Shape := ⟨2, ![40960, 64]⟩
abbrev S4096x64 : Shape := ⟨2, ![4096, 64]⟩
abbrev S4096 : Shape := ⟨1, ![4096]⟩
abbrev S4096x1 : Shape := ⟨2, ![4096, 1]⟩

abbrev nBuf : Space → Nat
  | .hbm => 126
  | .vmem => 33
  | .smem => 0
  | _ => 0

abbrev bufTy : (tb : Table) → Fin (tcTables nBuf tb) → BufTy
  | .hbm, ⟨0, _⟩ => ⟨S819200x128, .f32⟩
  | .hbm, ⟨1, _⟩ => ⟨S204800x128, .f32⟩
  | .hbm, ⟨2, _⟩ => ⟨S2048000, .i32⟩
  | .hbm, ⟨3, _⟩ => ⟨S2048000, .i32⟩
  | .hbm, ⟨4, _⟩ => ⟨S409600, .i32⟩
  | .hbm, ⟨5, _⟩ => ⟨S409600, .i32⟩
  | .hbm, ⟨6, _⟩ => ⟨S40960, .i32⟩
  | .hbm, ⟨7, _⟩ => ⟨S40960, .i32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S128x64, .f32⟩
  | .hbm, ⟨13, _⟩ => ⟨S64, .f32⟩
  | .hbm, ⟨14, _⟩ => ⟨S204800x128, .f32⟩
  | .hbm, ⟨15, _⟩ => ⟨S_, .i32⟩
  | .hbm, ⟨16, _⟩ => ⟨S2048000, .i32⟩
  | .hbm, ⟨17, _⟩ => ⟨S2048000, .i1⟩
  | .hbm, ⟨18, _⟩ => ⟨S_, .i32⟩
  | .hbm, ⟨19, _⟩ => ⟨S2048000, .i32⟩
  | .hbm, ⟨20, _⟩ => ⟨S2048000, .i32⟩
  | .hbm, ⟨21, _⟩ => ⟨S2048000, .i32⟩
  | .hbm, ⟨22, _⟩ => ⟨S2048000x1, .i32⟩
  | .hbm, ⟨23, _⟩ => ⟨S2048000x128, .f32⟩
  | .hbm, ⟨24, _⟩ => ⟨S_, .f32⟩
  | .hbm, ⟨25, _⟩ => ⟨S204800x128, .f32⟩
  | .hbm, ⟨26, _⟩ => ⟨S2048000x1, .i32⟩
  | .hbm, ⟨27, _⟩ => ⟨S204800x128, .f32⟩
  | .hbm, ⟨28, _⟩ => ⟨S_, .f32⟩
  | .hbm, ⟨29, _⟩ => ⟨S2048000, .f32⟩
  | .hbm, ⟨30, _⟩ => ⟨S_, .f32⟩
  | .hbm, ⟨31, _⟩ => ⟨S204800, .f32⟩
  | .hbm, ⟨32, _⟩ => ⟨S2048000x1, .i32⟩
  | .hbm, ⟨33, _⟩ => ⟨S204800, .f32⟩
  | .hbm, ⟨34, _⟩ => ⟨S_, .f32⟩
  | .hbm, ⟨35, _⟩ => ⟨S204800, .f32⟩
  | .hbm, ⟨36, _⟩ => ⟨S204800, .f32⟩
  | .hbm, ⟨37, _⟩ => ⟨S204800x1, .f32⟩
  | .hbm, ⟨38, _⟩ => ⟨S204800x128, .f32⟩
  | .hbm, ⟨39, _⟩ => ⟨S204800x128, .f32⟩
  | .hbm, ⟨40, _⟩ => ⟨S1x128, .f32⟩
  | .hbm, ⟨41, _⟩ => ⟨S204800x128, .f32⟩
  | .hbm, ⟨42, _⟩ => ⟨S40960x128, .f32⟩
  | .hbm, ⟨43, _⟩ => ⟨S_, .i32⟩
  | .hbm, ⟨44, _⟩ => ⟨S409600, .i32⟩
  | .hbm, ⟨45, _⟩ => ⟨S409600, .i1⟩
  | .hbm, ⟨46, _⟩ => ⟨S_, .i32⟩
  | .hbm, ⟨47, _⟩ => ⟨S409600, .i32⟩
  | .hbm, ⟨48, _⟩ => ⟨S409600, .i32⟩
  | .hbm, ⟨49, _⟩ => ⟨S409600, .i32⟩
  | .hbm, ⟨50, _⟩ => ⟨S409600x1, .i32⟩
  | .hbm, ⟨51, _⟩ => ⟨S409600x128, .f32⟩
  | .hbm, ⟨52, _⟩ => ⟨S_, .f32⟩
  | .hbm, ⟨53, _⟩ => ⟨S40960x128, .f32⟩
  | .hbm, ⟨54, _⟩ => ⟨S409600x1, .i32⟩
  | .hbm, ⟨55, _⟩ => ⟨S40960x128, .f32⟩
  | .hbm, ⟨56, _⟩ => ⟨S_, .f32⟩
  | .hbm, ⟨57, _⟩ => ⟨S409600, .f32⟩
  | .hbm, ⟨58, _⟩ => ⟨S_, .f32⟩
  | .hbm, ⟨59, _⟩ => ⟨S40960, .f32⟩
  | .hbm, ⟨60, _⟩ => ⟨S409600x1, .i32⟩
  | .hbm, ⟨61, _⟩ => ⟨S40960, .f32⟩
  | .hbm, ⟨62, _⟩ => ⟨S_, .f32⟩
  | .hbm, ⟨63, _⟩ => ⟨S40960, .f32⟩
  | .hbm, ⟨64, _⟩ => ⟨S40960, .f32⟩
  | .hbm, ⟨65, _⟩ => ⟨S40960x1, .f32⟩
  | .hbm, ⟨66, _⟩ => ⟨S40960x128, .f32⟩
  | .hbm, ⟨67, _⟩ => ⟨S40960x128, .f32⟩
  | .hbm, ⟨68, _⟩ => ⟨S1x64, .f32⟩
  | .hbm, ⟨69, _⟩ => ⟨S40960x64, .f32⟩
  | .hbm, ⟨70, _⟩ => ⟨S40960x128, .f32⟩
  | .hbm, ⟨71, _⟩ => ⟨S_, .i32⟩
  | .hbm, ⟨72, _⟩ => ⟨S409600, .i32⟩
  | .hbm, ⟨73, _⟩ => ⟨S409600, .i1⟩
  | .hbm, ⟨74, _⟩ => ⟨S_, .i32⟩
  | .hbm, ⟨75, _⟩ => ⟨S409600, .i32⟩
  | .hbm, ⟨76, _⟩ => ⟨S409600, .i32⟩
  | .hbm, ⟨77, _⟩ => ⟨S409600, .i32⟩
  | .hbm, ⟨78, _⟩ => ⟨S409600x1, .i32⟩
  | .hbm, ⟨79, _⟩ => ⟨S409600x128, .f32⟩
  | .hbm, ⟨80, _⟩ => ⟨S_, .f32⟩
  | .hbm, ⟨81, _⟩ => ⟨S40960x128, .f32⟩
  | .hbm, ⟨82, _⟩ => ⟨S409600x1, .i32⟩
  | .hbm, ⟨83, _⟩ => ⟨S40960x128, .f32⟩
  | .hbm, ⟨84, _⟩ => ⟨S_, .f32⟩
  | .hbm, ⟨85, _⟩ => ⟨S409600, .f32⟩
  | .hbm, ⟨86, _⟩ => ⟨S_, .f32⟩
  | .hbm, ⟨87, _⟩ => ⟨S40960, .f32⟩
  | .hbm, ⟨88, _⟩ => ⟨S409600x1, .i32⟩
  | .hbm, ⟨89, _⟩ => ⟨S40960, .f32⟩
  | .hbm, ⟨90, _⟩ => ⟨S_, .f32⟩
  | .hbm, ⟨91, _⟩ => ⟨S40960, .f32⟩
  | .hbm, ⟨92, _⟩ => ⟨S40960, .f32⟩
  | .hbm, ⟨93, _⟩ => ⟨S40960x1, .f32⟩
  | .hbm, ⟨94, _⟩ => ⟨S40960x128, .f32⟩
  | .hbm, ⟨95, _⟩ => ⟨S40960x128, .f32⟩
  | .hbm, ⟨96, _⟩ => ⟨S1x128, .f32⟩
  | .hbm, ⟨97, _⟩ => ⟨S40960x128, .f32⟩
  | .hbm, ⟨98, _⟩ => ⟨S4096x128, .f32⟩
  | .hbm, ⟨99, _⟩ => ⟨S_, .i32⟩
  | .hbm, ⟨100, _⟩ => ⟨S40960, .i32⟩
  | .hbm, ⟨101, _⟩ => ⟨S40960, .i1⟩
  | .hbm, ⟨102, _⟩ => ⟨S_, .i32⟩
  | .hbm, ⟨103, _⟩ => ⟨S40960, .i32⟩
  | .hbm, ⟨104, _⟩ => ⟨S40960, .i32⟩
  | .hbm, ⟨105, _⟩ => ⟨S40960, .i32⟩
  | .hbm, ⟨106, _⟩ => ⟨S40960x1, .i32⟩
  | .hbm, ⟨107, _⟩ => ⟨S40960x128, .f32⟩
  | .hbm, ⟨108, _⟩ => ⟨S_, .f32⟩
  | .hbm, ⟨109, _⟩ => ⟨S4096x128, .f32⟩
  | .hbm, ⟨110, _⟩ => ⟨S40960x1, .i32⟩
  | .hbm, ⟨111, _⟩ => ⟨S4096x128, .f32⟩
  | .hbm, ⟨112, _⟩ => ⟨S_, .f32⟩
  | .hbm, ⟨113, _⟩ => ⟨S40960, .f32⟩
  | .hbm, ⟨114, _⟩ => ⟨S_, .f32⟩
  | .hbm, ⟨115, _⟩ => ⟨S4096, .f32⟩
  | .hbm, ⟨116, _⟩ => ⟨S40960x1, .i32⟩
  | .hbm, ⟨117, _⟩ => ⟨S4096, .f32⟩
  | .hbm, ⟨118, _⟩ => ⟨S_, .f32⟩
  | .hbm, ⟨119, _⟩ => ⟨S4096, .f32⟩
  | .hbm, ⟨120, _⟩ => ⟨S4096, .f32⟩
  | .hbm, ⟨121, _⟩ => ⟨S4096x1, .f32⟩
  | .hbm, ⟨122, _⟩ => ⟨S4096x128, .f32⟩
  | .hbm, ⟨123, _⟩ => ⟨S4096x128, .f32⟩
  | .hbm, ⟨124, _⟩ => ⟨S1x64, .f32⟩
  | .hbm, ⟨125, _⟩ => ⟨S4096x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S4096x64, .f32⟩
  | .local _ .vmem, ⟨17, _⟩ => ⟨S4096x64, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S128x64, .f32⟩
  | .local _ .vmem, ⟨30, _⟩ => ⟨S128x64, .f32⟩
  | .local _ .vmem, ⟨31, _⟩ => ⟨S1x64, .f32⟩
  | .local _ .vmem, ⟨32, _⟩ => ⟨S4096x64, .f32⟩
  | _, _ => ⟨S819200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_cst_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_21 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

class Facts₀ : Prop where
  slices_S819200x128_S204800x128_0_0 : S819200x128.Slices ![0, 0] S204800x128
  bcast_S_S2048000 : S_.BroadcastsInDim S2048000 (![] : Fin 0 → Fin S2048000.rank)
  bcast_S2048000_S2048000x1_0 : S2048000.BroadcastsInDim S2048000x1 (![0] : Fin 1 → Fin S2048000x1.rank)
  bcast_S_S204800x128 : S_.BroadcastsInDim S204800x128 (![] : Fin 0 → Fin S204800x128.rank)
  bcast_S_S204800 : S_.BroadcastsInDim S204800 (![] : Fin 0 → Fin S204800.rank)
  bcast_S204800_S204800x1_0 : S204800.BroadcastsInDim S204800x1 (![0] : Fin 1 → Fin S204800x1.rank)
  bcast_S204800x1_S204800x128_0_1 : S204800x1.BroadcastsInDim S204800x128 (![0, 1] : Fin 2 → Fin S204800x128.rank)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S204800x128_S40960x128_0_0 : S204800x128.Slices ![0, 0] S40960x128
  bcast_S_S409600 : S_.BroadcastsInDim S409600 (![] : Fin 0 → Fin S409600.rank)
  bcast_S409600_S409600x1_0 : S409600.BroadcastsInDim S409600x1 (![0] : Fin 1 → Fin S409600x1.rank)
  bcast_S_S40960x128 : S_.BroadcastsInDim S40960x128 (![] : Fin 0 → Fin S40960x128.rank)
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x128_0_1 : S40960x1.BroadcastsInDim S40960x128 (![0, 1] : Fin 2 → Fin S40960x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S40960x128_S4096x128_0_0 : S40960x128.Slices ![0, 0] S4096x128
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  gather_S819200x128_S2048000x1_S2048000x128_1_0_n_n_0_1_1128_wf : GatherDims.WF S819200x128 S2048000x1 S2048000x128 [1] [0] [] [0] [] 1 ![1, 128]
  scatter_S204800x128_S2048000x1_S2048000x128_1_0_0_1_wf : ScatterDims.WF S204800x128 S2048000x1 S2048000x128 [1] [0] [0] 1
  scatter_S204800_S2048000x1_S2048000_n_0_0_1_wf : ScatterDims.WF S204800 S2048000x1 S2048000 [] [0] [0] 1
  dot_S4096x128_S128x128_S4096x128_1_0_0_1_n_n_wf : DotDims.WF S4096x128 S128x128 S4096x128 [1] [0] [0] [1] [] []
  gather_S204800x128_S409600x1_S409600x128_1_0_n_n_0_1_1128_wf : GatherDims.WF S204800x128 S409600x1 S409600x128 [1] [0] [] [0] [] 1 ![1, 128]
  scatter_S40960x128_S409600x1_S409600x128_1_0_0_1_wf : ScatterDims.WF S40960x128 S409600x1 S409600x128 [1] [0] [0] 1
  scatter_S40960_S409600x1_S409600_n_0_0_1_wf : ScatterDims.WF S40960 S409600x1 S409600 [] [0] [0] 1
  dot_S4096x128_S128x64_S4096x64_1_0_0_1_n_n_wf : DotDims.WF S4096x128 S128x64 S4096x64 [1] [0] [0] [1] [] []
  gather_S40960x128_S40960x1_S40960x128_1_0_n_n_0_1_1128_wf : GatherDims.WF S40960x128 S40960x1 S40960x128 [1] [0] [] [0] [] 1 ![1, 128]
  scatter_S4096x128_S40960x1_S40960x128_1_0_0_1_wf : ScatterDims.WF S4096x128 S40960x1 S40960x128 [1] [0] [0] 1
  scatter_S4096_S40960x1_S40960_n_0_0_1_wf : ScatterDims.WF S4096 S40960x1 S40960 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S204800x128.size a
  hwx0_0 : ∀ i : grid0.Coords, EltTy.bits .f32 = 32 ∨ (Rect.block (s := S204800x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S204800x128.size a
  hwx0_1 : ∀ i : grid0.Coords, EltTy.bits .f32 = 32 ∨ (Rect.block (s := S204800x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S204800x128.size a
  hwx0_5 : ∀ i : grid0.Coords, EltTy.bits .f32 = 32 ∨ (Rect.block (s := S204800x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S40960x128.size a
  hwx1_0 : ∀ i : grid1.Coords, EltTy.bits .f32 = 32 ∨ (Rect.block (s := S40960x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S40960x128.size a
  hwx1_1 : ∀ i : grid1.Coords, EltTy.bits .f32 = 32 ∨ (Rect.block (s := S40960x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S40960x64.size a
  hwx1_5 : ∀ i : grid1.Coords, EltTy.bits .f32 = 32 ∨ (Rect.block (s := S40960x64) S4096x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S40960x128.size a
  hwx2_0 : ∀ i : grid2.Coords, EltTy.bits .f32 = 32 ∨ (Rect.block (s := S40960x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S40960x128.size a
  hwx2_1 : ∀ i : grid2.Coords, EltTy.bits .f32 = 32 ∨ (Rect.block (s := S40960x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S40960x128.size a
  hwx2_5 : ∀ i : grid2.Coords, EltTy.bits .f32 = 32 ∨ (Rect.block (s := S40960x128) S4096x128.size (cc2_transform_5 i) (hinb2_5 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S4096x128.size a
  hwx3_0 : ∀ i : grid3.Coords, EltTy.bits .f32 = 32 ∨ (Rect.block (s := S4096x128) S4096x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S4096x64.size a
  hwx3_5 : ∀ i : grid3.Coords, EltTy.bits .f32 = 32 ∨ (Rect.block (s := S4096x64) S4096x64.size (cc3_transform_5 i) (hinb3_5 i)).WholeWords (EltTy.packing .f32)

variable [Facts₀]

def gather_S819200x128_S2048000x1_S2048000x128_1_0_n_n_0_1_1128 : GatherDims S819200x128 S2048000x1 S2048000x128 where
  offsetDims := [1]
  collapsedSliceDims := [0]
  operandBatchingDims := []
  startIndicesBatchingDims := []
  startIndexMap := [0]
  indexVectorDim := 1
  sliceSizes := ![1, 128]
  wf := gather_S819200x128_S2048000x1_S2048000x128_1_0_n_n_0_1_1128_wf
def scatter_S204800x128_S2048000x1_S2048000x128_1_0_0_1 : ScatterDims S204800x128 S2048000x1 S2048000x128 where
  updateWindowDims := [1]
  insertedWindowDims := [0]
  scatterDimsToOperandDims := [0]
  indexVectorDim := 1
  wf := scatter_S204800x128_S2048000x1_S2048000x128_1_0_0_1_wf
def scatter_S204800_S2048000x1_S2048000_n_0_0_1 : ScatterDims S204800 S2048000x1 S2048000 where
  updateWindowDims := []
  insertedWindowDims := [0]
  scatterDimsToOperandDims := [0]
  indexVectorDim := 1
  wf := scatter_S204800_S2048000x1_S2048000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S204800x128_S409600x1_S409600x128_1_0_n_n_0_1_1128 : GatherDims S204800x128 S409600x1 S409600x128 where
  offsetDims := [1]
  collapsedSliceDims := [0]
  operandBatchingDims := []
  startIndicesBatchingDims := []
  startIndexMap := [0]
  indexVectorDim := 1
  sliceSizes := ![1, 128]
  wf := gather_S204800x128_S409600x1_S409600x128_1_0_n_n_0_1_1128_wf
def scatter_S40960x128_S409600x1_S409600x128_1_0_0_1 : ScatterDims S40960x128 S409600x1 S409600x128 where
  updateWindowDims := [1]
  insertedWindowDims := [0]
  scatterDimsToOperandDims := [0]
  indexVectorDim := 1
  wf := scatter_S40960x128_S409600x1_S409600x128_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def scatter_S4096x128_S40960x1_S40960x128_1_0_0_1 : ScatterDims S4096x128 S40960x1 S40960x128 where
  updateWindowDims := [1]
  insertedWindowDims := [0]
  scatterDimsToOperandDims := [0]
  indexVectorDim := 1
  wf := scatter_S4096x128_S40960x1_S40960x128_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4096x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S4096x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S4096x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v85) S4096x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S4096x64.size cc3_transform_5 reads3_5 true false 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S819200x128 : Shape := ⟨2, ![819200, 128]⟩
abbrev S204800x128 : Shape := ⟨2, ![204800, 128]⟩
abbrev S2048000 : Shape := ⟨1, ![2048000]⟩
abbrev S409600 : Shape := ⟨1, ![409600]⟩
abbrev S40960 : Shape := ⟨1, ![40960]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S2048000x1 : Shape := ⟨2, ![2048000, 1]⟩
abbrev S2048000x128 : Shape := ⟨2, ![2048000, 128]⟩
abbrev S204800 : Shape := ⟨1, ![204800]⟩
abbrev S204800x1 : Shape := ⟨2, ![204800, 1]⟩
abbrev S1x128 : Shape := ⟨2, ![1, 128]⟩
abbrev S40960x128 : Shape := ⟨2, ![40960, 128]⟩
abbrev S409600x1 : Shape := ⟨2, ![409600, 1]⟩
abbrev S409600x128 : Shape := ⟨2, ![409600, 128]⟩
abbrev S40960x1 : Shape := ⟨2, ![40960, 1]⟩
abbrev S40960x64 : Shape := ⟨2, ![40960, 64]⟩
abbrev S1x64 : Shape := ⟨2, ![1, 64]⟩
abbrev S4096x128 : Shape := ⟨2, ![4096, 128]⟩
abbrev S4096 : Shape := ⟨1, ![4096]⟩
abbrev S4096x1 : Shape := ⟨2, ![4096, 1]⟩
abbrev S4096x64 : Shape := ⟨2, ![4096, 64]⟩

abbrev nBuf : Space → Nat
  | .hbm => 154
  | .vmem => 0
  | .smem => 0
  | _ => 0

abbrev hbmTy0_0 (i : Nat) : BufTy := match i % 128 with
  | 0 => ⟨S819200x128, .f32⟩
  | 1 => ⟨S204800x128, .f32⟩
  | 2 => ⟨S2048000, .i32⟩
  | 3 => ⟨S2048000, .i32⟩
  | 4 => ⟨S409600, .i32⟩
  | 5 => ⟨S409600, .i32⟩
  | 6 => ⟨S40960, .i32⟩
  | 7 => ⟨S40960, .i32⟩
  | 8 => ⟨S128x128, .f32⟩
  | 9 => ⟨S128x128, .f32⟩
  | 10 => ⟨S128, .f32⟩
  | 11 => ⟨S128x64, .f32⟩
  | 12 => ⟨S128x64, .f32⟩
  | 13 => ⟨S64, .f32⟩
  | 14 => ⟨S204800x128, .f32⟩
  | 15 => ⟨S_, .i32⟩
  | 16 => ⟨S2048000, .i32⟩
  | 17 => ⟨S2048000, .i1⟩
  | 18 => ⟨S_, .i32⟩
  | 19 => ⟨S2048000, .i32⟩
  | 20 => ⟨S2048000, .i32⟩
  | 21 => ⟨S2048000, .i32⟩
  | 22 => ⟨S2048000x1, .i32⟩
  | 23 => ⟨S2048000x128, .f32⟩
  | 24 => ⟨S_, .f32⟩
  | 25 => ⟨S204800x128, .f32⟩
  | 26 => ⟨S2048000x1, .i32⟩
  | 27 => ⟨S204800x128, .f32⟩
  | 28 => ⟨S_, .f32⟩
  | 29 => ⟨S2048000, .f32⟩
  | 30 => ⟨S_, .f32⟩
  | 31 => ⟨S204800, .f32⟩
  | 32 => ⟨S2048000x1, .i32⟩
  | 33 => ⟨S204800, .f32⟩
  | 34 => ⟨S_, .f32⟩
  | 35 => ⟨S204800, .f32⟩
  | 36 => ⟨S204800, .f32⟩
  | 37 => ⟨S204800x1, .f32⟩
  | 38 => ⟨S204800x128, .f32⟩
  | 39 => ⟨S204800x128, .f32⟩
  | 40 => ⟨S204800x128, .f32⟩
  | 41 => ⟨S204800x128, .f32⟩
  | 42 => ⟨S204800x128, .f32⟩
  | 43 => ⟨S1x128, .f32⟩
  | 44 => ⟨S204800x128, .f32⟩
  | 45 => ⟨S204800x128, .f32⟩
  | 46 => ⟨S_, .f32⟩
  | 47 => ⟨S204800x128, .f32⟩
  | 48 => ⟨S204800x128, .f32⟩
  | 49 => ⟨S_, .f32⟩
  | 50 => ⟨S204800x128, .f32⟩
  | 51 => ⟨S204800x128, .f32⟩
  | 52 => ⟨S40960x128, .f32⟩
  | 53 => ⟨S_, .i32⟩
  | 54 => ⟨S409600, .i32⟩
  | 55 => ⟨S409600, .i1⟩
  | 56 => ⟨S_, .i32⟩
  | 57 => ⟨S409600, .i32⟩
  | 58 => ⟨S409600, .i32⟩
  | 59 => ⟨S409600, .i32⟩
  | 60 => ⟨S409600x1, .i32⟩
  | 61 => ⟨S409600x128, .f32⟩
  | 62 => ⟨S_, .f32⟩
  | 63 => ⟨S40960x128, .f32⟩
  | 64 => ⟨S409600x1, .i32⟩
  | 65 => ⟨S40960x128, .f32⟩
  | 66 => ⟨S_, .f32⟩
  | 67 => ⟨S409600, .f32⟩
  | 68 => ⟨S_, .f32⟩
  | 69 => ⟨S40960, .f32⟩
  | 70 => ⟨S409600x1, .i32⟩
  | 71 => ⟨S40960, .f32⟩
  | 72 => ⟨S_, .f32⟩
  | 73 => ⟨S40960, .f32⟩
  | 74 => ⟨S40960, .f32⟩
  | 75 => ⟨S40960x1, .f32⟩
  | 76 => ⟨S40960x128, .f32⟩
  | 77 => ⟨S40960x128, .f32⟩
  | 78 => ⟨S40960x64, .f32⟩
  | 79 => ⟨S40960x64, .f32⟩
  | 80 => ⟨S40960x64, .f32⟩
  | 81 => ⟨S1x64, .f32⟩
  | 82 => ⟨S40960x64, .f32⟩
  | 83 => ⟨S40960x64, .f32⟩
  | 84 => ⟨S40960x128, .f32⟩
  | 85 => ⟨S_, .i32⟩
  | 86 => ⟨S409600, .i32⟩
  | 87 => ⟨S409600, .i1⟩
  | 88 => ⟨S_, .i32⟩
  | 89 => ⟨S409600, .i32⟩
  | 90 => ⟨S409600, .i32⟩
  | 91 => ⟨S409600, .i32⟩
  | 92 => ⟨S409600x1, .i32⟩
  | 93 => ⟨S409600x128, .f32⟩
  | 94 => ⟨S_, .f32⟩
  | 95 => ⟨S40960x128, .f32⟩
  | 96 => ⟨S409600x1, .i32⟩
  | 97 => ⟨S40960x128, .f32⟩
  | 98 => ⟨S_, .f32⟩
  | 99 => ⟨S409600, .f32⟩
  | 100 => ⟨S_, .f32⟩
  | 101 => ⟨S40960, .f32⟩
  | 102 => ⟨S409600x1, .i32⟩
  | 103 => ⟨S40960, .f32⟩
  | 104 => ⟨S_, .f32⟩
  | 105 => ⟨S40960, .f32⟩
  | 106 => ⟨S40960, .f32⟩
  | 107 => ⟨S40960x1, .f32⟩
  | 108 => ⟨S40960x128, .f32⟩
  | 109 => ⟨S40960x128, .f32⟩
  | 110 => ⟨S40960x128, .f32⟩
  | 111 => ⟨S40960x128, .f32⟩
  | 112 => ⟨S40960x128, .f32⟩
  | 113 => ⟨S1x128, .f32⟩
  | 114 => ⟨S40960x128, .f32⟩
  | 115 => ⟨S40960x128, .f32⟩
  | 116 => ⟨S_, .f32⟩
  | 117 => ⟨S40960x128, .f32⟩
  | 118 => ⟨S40960x128, .f32⟩
  | 119 => ⟨S_, .f32⟩
  | 120 => ⟨S40960x128, .f32⟩
  | 121 => ⟨S40960x128, .f32⟩
  | 122 => ⟨S4096x128, .f32⟩
  | 123 => ⟨S_, .i32⟩
  | 124 => ⟨S40960, .i32⟩
  | 125 => ⟨S40960, .i1⟩
  | 126 => ⟨S_, .i32⟩
  | 127 => ⟨S40960, .i32⟩
  | _ => ⟨S819200x128, .f32⟩

abbrev hbmTy0_1 (i : Nat) : BufTy := match i % 128 with
  | 0 => ⟨S40960, .i32⟩
  | 1 => ⟨S40960, .i32⟩
  | 2 => ⟨S40960x1, .i32⟩
  | 3 => ⟨S40960x128, .f32⟩
  | 4 => ⟨S_, .f32⟩
  | 5 => ⟨S4096x128, .f32⟩
  | 6 => ⟨S40960x1, .i32⟩
  | 7 => ⟨S4096x128, .f32⟩
  | 8 => ⟨S_, .f32⟩
  | 9 => ⟨S40960, .f32⟩
  | 10 => ⟨S_, .f32⟩
  | 11 => ⟨S4096, .f32⟩
  | 12 => ⟨S40960x1, .i32⟩
  | 13 => ⟨S4096, .f32⟩
  | 14 => ⟨S_, .f32⟩
  | 15 => ⟨S4096, .f32⟩
  | 16 => ⟨S4096, .f32⟩
  | 17 => ⟨S4096x1, .f32⟩
  | 18 => ⟨S4096x128, .f32⟩
  | 19 => ⟨S4096x128, .f32⟩
  | 20 => ⟨S4096x64, .f32⟩
  | 21 => ⟨S4096x64, .f32⟩
  | 22 => ⟨S4096x64, .f32⟩
  | 23 => ⟨S1x64, .f32⟩
  | 24 => ⟨S4096x64, .f32⟩
  | 25 => ⟨S4096x64, .f32⟩
  | _ => ⟨S819200x128, .f32⟩

abbrev hbmTy (i : Nat) : BufTy := match i / 128 with
  | 0 => hbmTy0_0 i
  | 1 => hbmTy0_1 i
  | _ => ⟨S819200x128, .f32⟩

abbrev bufTy : (tb : Table) → Fin (tcTables nBuf tb) → BufTy
  | .hbm, ⟨i, _⟩ => hbmTy i
  | _, _ => ⟨S819200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call0_cst : Ref sig .tc := ⟨.hbm, 46, rfl⟩
abbrev main_call0_v0 : Ref sig .tc := ⟨.hbm, 47, rfl⟩
abbrev main_v26 : Ref sig .tc := ⟨.hbm, 48, rfl⟩
abbrev main_call1_cst : Ref sig .tc := ⟨.hbm, 49, rfl⟩
abbrev main_call1_v0 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_call3_cst : Ref sig .tc := ⟨.hbm, 119, rfl⟩
abbrev main_call3_v0 : Ref sig .tc := ⟨.hbm, 120, rfl⟩
abbrev main_v81 : Ref sig .tc := ⟨.hbm, 121, rfl⟩
abbrev main_v82 : Ref sig .tc := ⟨.hbm, 122, rfl⟩
abbrev main_c_16 : Ref sig .tc := ⟨.hbm, 123, rfl⟩
abbrev main_v83 : Ref sig .tc := ⟨.hbm, 124, rfl⟩
abbrev main_v84 : Ref sig .tc := ⟨.hbm, 125, rfl⟩
abbrev main_c_17 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩

abbrev nD : Nat := 1
abbrev τ : Topo := Topo.v7x

variable {F : FTy → Type} [FloatOps F]

class Facts₀ : Prop where
  slices_S819200x128_S204800x128_0_0 : S819200x128.Slices ![0, 0] S204800x128
  bcast_S_S2048000 : S_.BroadcastsInDim S2048000 (![] : Fin 0 → Fin S2048000.rank)
  bcast_S2048000_S2048000x1_0 : S2048000.BroadcastsInDim S2048000x1 (![0] : Fin 1 → Fin S2048000x1.rank)
  bcast_S_S204800x128 : S_.BroadcastsInDim S204800x128 (![] : Fin 0 → Fin S204800x128.rank)
  bcast_S_S204800 : S_.BroadcastsInDim S204800 (![] : Fin 0 → Fin S204800.rank)
  bcast_S204800_S204800x1_0 : S204800.BroadcastsInDim S204800x1 (![0] : Fin 1 → Fin S204800x1.rank)
  bcast_S204800x1_S204800x128_0_1 : S204800x1.BroadcastsInDim S204800x128 (![0, 1] : Fin 2 → Fin S204800x128.rank)
  bcast_S128_S1x128_1 : S128.BroadcastsInDim S1x128 (![1] : Fin 1 → Fin S1x128.rank)
  bcast_S1x128_S204800x128_0_1 : S1x128.BroadcastsInDim S204800x128 (![0, 1] : Fin 2 → Fin S204800x128.rank)
  slices_S204800x128_S40960x128_0_0 : S204800x128.Slices ![0, 0] S40960x128
  bcast_S_S409600 : S_.BroadcastsInDim S409600 (![] : Fin 0 → Fin S409600.rank)
  bcast_S409600_S409600x1_0 : S409600.BroadcastsInDim S409600x1 (![0] : Fin 1 → Fin S409600x1.rank)
  bcast_S_S40960x128 : S_.BroadcastsInDim S40960x128 (![] : Fin 0 → Fin S40960x128.rank)
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x128_0_1 : S40960x1.BroadcastsInDim S40960x128 (![0, 1] : Fin 2 → Fin S40960x128.rank)
  bcast_S64_S1x64_1 : S64.BroadcastsInDim S1x64 (![1] : Fin 1 → Fin S1x64.rank)
  bcast_S1x64_S40960x64_0_1 : S1x64.BroadcastsInDim S40960x64 (![0, 1] : Fin 2 → Fin S40960x64.rank)
  bcast_S1x128_S40960x128_0_1 : S1x128.BroadcastsInDim S40960x128 (![0, 1] : Fin 2 → Fin S40960x128.rank)
  slices_S40960x128_S4096x128_0_0 : S40960x128.Slices ![0, 0] S4096x128
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x64_S4096x64_0_1 : S1x64.BroadcastsInDim S4096x64 (![0, 1] : Fin 2 → Fin S4096x64.rank)
  gather_S819200x128_S2048000x1_S2048000x128_1_0_n_n_0_1_1128_wf : GatherDims.WF S819200x128 S2048000x1 S2048000x128 [1] [0] [] [0] [] 1 ![1, 128]
  scatter_S204800x128_S2048000x1_S2048000x128_1_0_0_1_wf : ScatterDims.WF S204800x128 S2048000x1 S2048000x128 [1] [0] [0] 1
  scatter_S204800_S2048000x1_S2048000_n_0_0_1_wf : ScatterDims.WF S204800 S2048000x1 S2048000 [] [0] [0] 1
  dot_S204800x128_S128x128_S204800x128_1_0_0_1_n_n_wf : DotDims.WF S204800x128 S128x128 S204800x128 [1] [0] [0] [1] [] []
  gather_S204800x128_S409600x1_S409600x128_1_0_n_n_0_1_1128_wf : GatherDims.WF S204800x128 S409600x1 S409600x128 [1] [0] [] [0] [] 1 ![1, 128]
  scatter_S40960x128_S409600x1_S409600x128_1_0_0_1_wf : ScatterDims.WF S40960x128 S409600x1 S409600x128 [1] [0] [0] 1
  scatter_S40960_S409600x1_S409600_n_0_0_1_wf : ScatterDims.WF S40960 S409600x1 S409600 [] [0] [0] 1
  dot_S40960x128_S128x64_S40960x64_1_0_0_1_n_n_wf : DotDims.WF S40960x128 S128x64 S40960x64 [1] [0] [0] [1] [] []
  dot_S40960x128_S128x128_S40960x128_1_0_0_1_n_n_wf : DotDims.WF S40960x128 S128x128 S40960x128 [1] [0] [0] [1] [] []
  gather_S40960x128_S40960x1_S40960x128_1_0_n_n_0_1_1128_wf : GatherDims.WF S40960x128 S40960x1 S40960x128 [1] [0] [] [0] [] 1 ![1, 128]
  scatter_S4096x128_S40960x1_S40960x128_1_0_0_1_wf : ScatterDims.WF S4096x128 S40960x1 S40960x128 [1] [0] [0] 1
  scatter_S4096_S40960x1_S40960_n_0_0_1_wf : ScatterDims.WF S4096 S40960x1 S40960 [] [0] [0] 1
  dot_S4096x128_S128x64_S4096x64_1_0_0_1_n_n_wf : DotDims.WF S4096x128 S128x64 S4096x64 [1] [0] [0] [1] [] []

variable [Facts₀]

def gather_S819200x128_S2048000x1_S2048000x128_1_0_n_n_0_1_1128 : GatherDims S819200x128 S2048000x1 S2048000x128 where
  offsetDims := [1]
  collapsedSliceDims := [0]
  operandBatchingDims := []
  startIndicesBatchingDims := []
  startIndexMap := [0]
  indexVectorDim := 1
  sliceSizes := ![1, 128]
  wf := gather_S819200x128_S2048000x1_S2048000x128_1_0_n_n_0_1_1128_wf
def scatter_S204800x128_S2048000x1_S2048000x128_1_0_0_1 : ScatterDims S204800x128 S2048000x1 S2048000x128 where
  updateWindowDims := [1]
  insertedWindowDims := [0]
  scatterDimsToOperandDims := [0]
  indexVectorDim := 1
  wf := scatter_S204800x128_S2048000x1_S2048000x128_1_0_0_1_wf
def scatter_S204800_S2048000x1_S2048000_n_0_0_1 : ScatterDims S204800 S2048000x1 S2048000 where
  updateWindowDims := []
  insertedWindowDims := [0]
  scatterDimsToOperandDims := [0]
  indexVectorDim := 1
  wf := scatter_S204800_S2048000x1_S2048000_n_0_0_1_wf
def dot_S204800x128_S128x128_S204800x128_1_0_0_1_n_n : DotDims S204800x128 S128x128 S204800x128 where
  lhsContracting := [1]
  rhsContracting := [0]
  lhsNonContracting := [0]
  rhsNonContracting := [1]
  lhsBatch := []
  rhsBatch := []
  wf := dot_S204800x128_S128x128_S204800x128_1_0_0_1_n_n_wf
def gather_S204800x128_S409600x1_S409600x128_1_0_n_n_0_1_1128 : GatherDims S204800x128 S409600x1 S409600x128 where
  offsetDims := [1]
  collapsedSliceDims := [0]
  operandBatchingDims := []
  startIndicesBatchingDims := []
  startIndexMap := [0]
  indexVectorDim := 1
  sliceSizes := ![1, 128]
  wf := gather_S204800x128_S409600x1_S409600x128_1_0_n_n_0_1_1128_wf
def scatter_S40960x128_S409600x1_S409600x128_1_0_0_1 : ScatterDims S40960x128 S409600x1 S409600x128 where
  updateWindowDims := [1]
  insertedWindowDims := [0]
  scatterDimsToOperandDims := [0]
  indexVectorDim := 1
  wf := scatter_S40960x128_S409600x1_S409600x128_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S40960x128_S128x64_S40960x64_1_0_0_1_n_n : DotDims S40960x128 S128x64 S40960x64 where
  lhsContracting := [1]
  rhsContracting := [0]
  lhsNonContracting := [0]
  rhsNonContracting := [1]
  lhsBatch := []
  rhsBatch := []
  wf := dot_S40960x128_S128x64_S40960x64_1_0_0_1_n_n_wf
def dot_S40960x128_S128x128_S40960x128_1_0_0_1_n_n : DotDims S40960x128 S128x128 S40960x128 where
  lhsContracting := [1]
  rhsContracting := [0]
  lhsNonContracting := [0]
  rhsNonContracting := [1]
  lhsBatch := []
  rhsBatch := []
  wf := dot_S40960x128_S128x128_S40960x128_1_0_0_1_n_n_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def scatter_S4096x128_S40960x1_S40960x128_1_0_0_1 : ScatterDims S4096x128 S40960x1 S40960x128 where
  updateWindowDims := [1]
  insertedWindowDims := [0]
  scatterDimsToOperandDims := [0]
  indexVectorDim := 1
  wf := scatter_S4096x128_S40960x1_S40960x128_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

class Facts : Prop extends Facts₀ where

variable [Facts]
-- ==== Proof.KernelRun.lean ====
/-
  The kernel program's run, with what it leaves in memory stated.

  The program is four calls with stretches of host operations between them. Running it segment by segment gives the
  contents of every buffer at every boundary: after a host stretch, the stretch's operations applied to what was there;
  after a call, the call's arrays at what its write-backs leave and every other buffer untouched. The last of these
  boundaries is the end of the program. Here that is stated once, for any property `Q` of the final memory that follows
  from "every buffer that outlives the calls holds the last boundary's contents": every weakly fair execution
  terminates, nothing faults, and the final memory satisfies `Q`.
-/
import proofs.«106127_j85255100826267_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and its
    final memory has every buffer that outlives the calls at the contents of the last boundary (`W8`); so it satisfies
    any `Q` those contents imply. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

end Cert.Sage.KernelRun

end
-- ==== Proof.Dense.lean ====
/-
  One layer of the graph network, as a function of whole arrays, index by index, on the extended reals.

  A layer maps a table of node features to a narrower table: row `r` of the result is the row of the node's own
  features times the self weights, plus the row of the mean of its neighbours' features times the neighbour weights,
  plus the bias, column by column:

      out[r, j] = (∑ₖ hd[r, k] · ws[k, j]) + (∑ₖ hn[r, k] · wn[k, j]) + b[0, j].

  The hidden layer clamps this below at zero. Nothing here depends on how many rows are computed at a time: a row of
  the result depends on the same row of the two inputs and on the whole of the weights.
-/
import Idealize.ShloMosaic.PureOps.Ideal
import Idealize.ShloMosaic.Lib.ValueIdx

noncomputable section

namespace Cert.Sage

open Idealize.ShloMosaic Idealize.ShloMosaic.ValueIdx

/-- The affine part of a layer at row `r`, column `j`: the two products' sums over the 128 input features, then the bias. -/
def affineAt {N FO : Nat} (hd hn : (⟨2, ![N, 128]⟩ : Shape).Idx → EReal) (ws wn : (⟨2, ![128, FO]⟩ : Shape).Idx → EReal)
    (b : (⟨2, ![1, FO]⟩ : Shape).Idx → EReal) (r : Fin N) (j : Fin FO) : EReal :=
  (∑ k : Fin 128, hd (ix2 r k) * ws (ix2 k j)) + (∑ k : Fin 128, hn (ix2 r k) * wn (ix2 k j)) + b (ix2 (0 : Fin 1) j)

/-- The output layer: the affine map at every index. -/
def affine {N FO : Nat} (hd hn : (⟨2, ![N, 128]⟩ : Shape).Idx → EReal) (ws wn : (⟨2, ![128, FO]⟩ : Shape).Idx → EReal)
    (b : (⟨2, ![1, FO]⟩ : Shape).Idx → EReal) : (⟨2, ![N, FO]⟩ : Shape).Idx → EReal :=
  fun i => affineAt hd hn ws wn b ⟨(i 0).val, idx2_lt0 i⟩ ⟨(i 1).val, idx2_lt1 i⟩

/-- The hidden layer: the affine map clamped below at zero. -/
def affineRelu {N FO : Nat} (hd hn : (⟨2, ![N, 128]⟩ : Shape).Idx → EReal) (ws wn : (⟨2, ![128, FO]⟩ : Shape).Idx → EReal)
    (b : (⟨2, ![1, FO]⟩ : Shape).Idx → EReal) : (⟨2, ![N, FO]⟩ : Shape).Idx → EReal :=
  fun i => max (affineAt hd hn ws wn b ⟨(i 0).val, idx2_lt0 i⟩ ⟨(i 1).val, idx2_lt1 i⟩) 0

/-- The affine map at a position depends only on the row of the two feature tables at that position's row, on the
    column of the two weight tables at its column, and on the bias there: two sets of tables that agree on those give
    the same value, whatever their heights. -/
theorem affineAt_congr {N N' FO : Nat}
    (hd hn : (⟨2, ![N, 128]⟩ : Shape).Idx → EReal) (ws wn : (⟨2, ![128, FO]⟩ : Shape).Idx → EReal) (b : (⟨2, ![1, FO]⟩ : Shape).Idx → EReal)
    (hd' hn' : (⟨2, ![N', 128]⟩ : Shape).Idx → EReal) (ws' wn' : (⟨2, ![128, FO]⟩ : Shape).Idx → EReal) (b' : (⟨2, ![1, FO]⟩ : Shape).Idx → EReal)
    (r : Fin N) (r' : Fin N') (j j' : Fin FO)
    (h0 : ∀ k : Fin 128, hd (ix2 r k) = hd' (ix2 r' k)) (h1 : ∀ k : Fin 128, hn (ix2 r k) = hn' (ix2 r' k))
    (h2 : ∀ k : Fin 128, ws (ix2 k j) = ws' (ix2 k j')) (h3 : ∀ k : Fin 128, wn (ix2 k j) = wn' (ix2 k j'))
    (h4 : b (ix2 (0 : Fin 1) j) = b' (ix2 (0 : Fin 1) j')) :
    affineAt hd hn ws wn b r j = affineAt hd' hn' ws' wn' b' r' j' := by
  unfold affineAt
  rw [h4]
  congr 1
  congr 1
  · exact Finset.sum_congr rfl fun k _ => by rw [h0 k, h2 k]
  · exact Finset.sum_congr rfl fun k _ => by rw [h1 k, h3 k]

/-- Clamping twice is clamping once. -/
theorem max_zero_idem (x : EReal) : max (max x 0) 0 = max x 0 := by
  rw [max_assoc, max_self]

end Cert.Sage

end
-- ==== Proof.Pay0.lean ====
/-
  What the body of call 0 stores, read at one position of its block.

  The body multiplies a block of 4096 rows of the nodes' own features by the self weights and the matching block of
  the neighbours' means by the neighbour weights, each product accumulated from zero, adds the two, adds the bias row to
  every row, and clamps below at zero. Narrowing the operands to a shorter float format before the
  products changes nothing on the extended reals, and a sum accumulated from zero is the sum. So position (p, q) of the
  stored block is the layer's value at row p of the block, column q.
-/
import proofs.«106127_j85255100826267_1_alg».proof.Proof.Gen.KernelIdeal.Skeleton
import proofs.«106127_j85255100826267_1_alg».proof.Proof.Dense
import Idealize.ShloMosaic.Lib.Pipeline.Value
import Idealize.ShloMosaic.Lib.ValueIdx
import Idealize.ShloMosaic.PureOps.Ideal.Laws

noncomputable section

namespace Cert.Sage.Pay0

open Idealize.ShloMosaic Idealize.ShloMosaic.ValueIdx Cert.KernelIdeal Cert.KernelIdeal.Gen

/-- The left operand of the body's product at output position `j` and feature `k` is position (row of j, k). -/
theorem lhs_at (j : S4096x128.Idx) (k : Fin 128) :
    dot_S4096x128_S128x128_S4096x128_1_0_0_1_n_n.lhsIdx j ((contrEquiv1 dot_S4096x128_S128x128_S4096x128_1_0_0_1_n_n 128 rfl rfl).symm k) = ix2 (n0 := 4096) (n1 := 128) ⟨(j 0).val, idx2_lt0 j⟩ k := by
  have hk := contrEquiv1_symm_val dot_S4096x128_S128x128_S4096x128_1_0_0_1_n_n 128 rfl rfl k
  funext a
  apply Fin.ext
  match a with
  | ⟨0, _⟩ =>
    show (dot_S4096x128_S128x128_S4096x128_1_0_0_1_n_n.lhsIdx j _ 0).val = (j 0).val
    unfold DotDims.lhsIdx
    rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
    rfl
  | ⟨1, _⟩ => exact (dot_S4096x128_S128x128_S4096x128_1_0_0_1_n_n.lhsIdx_val_of_single rfl j _).trans hk

/-- The right operand at output position `j` and feature `k` is position (k, column of j). -/
theorem rhs_at (j : S4096x128.Idx) (k : Fin 128) :
    dot_S4096x128_S128x128_S4096x128_1_0_0_1_n_n.rhsIdx j ((contrEquiv1 dot_S4096x128_S128x128_S4096x128_1_0_0_1_n_n 128 rfl rfl).symm k) = ix2 (n0 := 128) (n1 := 128) k ⟨(j 1).val, idx2_lt1 j⟩ := by
  have hk := contrEquiv1_symm_val dot_S4096x128_S128x128_S4096x128_1_0_0_1_n_n 128 rfl rfl k
  funext a
  apply Fin.ext
  match a with
  | ⟨0, _⟩ => exact (dot_S4096x128_S128x128_S4096x128_1_0_0_1_n_n.rhsIdx_val_of_single rfl j _).trans hk
  | ⟨1, _⟩ =>
    show (dot_S4096x128_S128x128_S4096x128_1_0_0_1_n_n.rhsIdx j _ 1).val = (j 1).val
    unfold DotDims.rhsIdx
    rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
    rfl

/-- A product accumulated from zero, at a position: the sum over the 128 features. -/
theorem product_at (x : FVec Ideal S4096x128 .bf16) (w : FVec Ideal S128x128 .bf16) (j : S4096x128.Idx) :
    matmul (F := Ideal) dot_S4096x128_S128x128_S4096x128_1_0_0_1_n_n none x w (constant S4096x128 .f32 0x00000000#32) j
      = ∑ k : Fin 128, x (ix2 (n0 := 4096) (n1 := 128) ⟨(j 0).val, idx2_lt0 j⟩ k) * w (ix2 (n0 := 128) (n1 := 128) k ⟨(j 1).val, idx2_lt1 j⟩) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  rw [lhs_at, rhs_at]

/-- The bias row spread over the block's rows, at a position: the bias at the position's column. -/
theorem bias_at (b : FVec Ideal S1x128 .f32) (j : S4096x128.Idx) :
    broadcastTo S4096x128 b broadcasts_S1x128_S4096x128 j = b (ix2 (n0 := 1) (n1 := 128) (0 : Fin 1) ⟨(j 1).val, idx2_lt1 j⟩) :=
  broadcastTo_apply b broadcasts_S1x128_S4096x128 j _ (fun a => match a with
    | ⟨0, _⟩ => by show (0 : Nat) = if (1 : Nat) = 1 then 0 else (j 0).val; rw [if_pos rfl]
    | ⟨1, _⟩ => by show (j 1).val = if (128 : Nat) = 1 then 0 else (j 1).val; rw [if_neg (by decide)])

/-- THE STORED BLOCK at position `j`: the layer's value there. -/
theorem pay_at (x0 x1 : Vec Ideal S4096x128 .f32) (x2 x3 : Vec Ideal S128x128 .f32) (x4 : Vec Ideal S1x128 .f32) (j : S4096x128.Idx) :
    k0_pay1 (F := Ideal) x0 x1 x2 x3 x4 j
      = max (Cert.Sage.affineAt (N := 4096) (FO := 128) x0 x1 x2 x3 x4 ⟨(j 0).val, idx2_lt0 j⟩ ⟨(j 1).val, idx2_lt1 j⟩) 0 := by
  unfold k0_pay1
  simp only [shapeCast_self]
  rw [maximumf_apply, broadcast_apply, addf_apply, addf_apply, product_at, product_at, bias_at]
  show max _ (Ideal.ofBits .f32 0x00000000#32) = _
  rw [Ideal.ofBits_zero_f32]
  rfl

end Cert.Sage.Pay0

end
-- ==== Proof.Blocks0.lean ====
/-
  Call 0: from what each grid point writes back to the whole result array.

  The call walks 50 grid points; point t reads rows 4096·t … 4096·t + 4095 of the two feature tables and the whole of the
  two weight tables and of the bias row, and writes back rows 4096·t … 4096·t + 4095 of the result. A row of the layer
  depends only on the same row of the feature tables, so what point t writes back is exactly block t of the layer applied
  to the whole tables; the 50 blocks tile the result, so after the call the result array is the layer of the tables as the
  call found them — for any contents `V` of memory at the call's entry.
-/
import proofs.«106127_j85255100826267_1_alg».proof.Proof.Gen.KernelIdeal.Frame
import proofs.«106127_j85255100826267_1_alg».proof.Proof.Pay0
import Idealize.ShloMosaic.Lib.Pipeline.Value
import Idealize.ShloMosaic.Lib.Tactic

set_option maxRecDepth 16384

noncomputable section

namespace Cert.Sage.Blocks0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the feature tables' and the result's block is number t along the
    rows; the weights' and the bias's is the one block there is. -/
theorem block_numbers : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_5.index t (0 : Fin 2) = t.val
    ∧ win0_5.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0 :=
  (by decide +kernel : ∀ t : Fin grid0.N, _)

/-- The layer of the whole tables as the call finds them. -/
abbrev layer (c : Dev nD) : S204800x128.Idx → EReal :=
  Cert.Sage.affineRelu (N := 204800) (FO := 128) (V c main_v0) (V c main_v19) (V c main_arg8) (V c main_arg9) (V c main_v20)

/-- A position of the own-features block at point t is a position of the table, 4096·t rows down. -/
theorem blk0_at (c : Dev nD) (t : Fin cfg0.N) (x : S4096x128.Idx) (k : S204800x128.Idx)
    (hk0 : (k 0).val = 4096 * t.val + (x 0).val) (hk1 : (k 1).val = (x 1).val) :
    (iblk0 V c 0 t : Vec Ideal S4096x128 .f32) x = (V c main_v0 : S204800x128.Idx → EReal) k := by
  obtain ⟨e00, e01, -⟩ := block_numbers t
  unfold iblk0
  rw [View.read_apply]
  show V c main_v0 _ = V c main_v0 _
  congr 1
  funext a
  apply Fin.ext
  match a with
  | ⟨0, _⟩ => show win0_0.index t 0 * 4096 + 1 * (x 0).val = (k 0).val; rw [e00, hk0]; omega
  | ⟨1, _⟩ => show win0_0.index t 1 * 128 + 1 * (x 1).val = (k 1).val; rw [e01, hk1]; omega

/-- The same for the neighbour-means block. -/
theorem blk1_at (c : Dev nD) (t : Fin cfg0.N) (x : S4096x128.Idx) (k : S204800x128.Idx)
    (hk0 : (k 0).val = 4096 * t.val + (x 0).val) (hk1 : (k 1).val = (x 1).val) :
    (iblk0 V c 1 t : Vec Ideal S4096x128 .f32) x = (V c main_v19 : S204800x128.Idx → EReal) k := by
  obtain ⟨-, -, e10, e11, -⟩ := block_numbers t
  unfold iblk0
  rw [View.read_apply]
  show V c main_v19 _ = V c main_v19 _
  congr 1
  funext a
  apply Fin.ext
  match a with
  | ⟨0, _⟩ => show win0_1.index t 0 * 4096 + 1 * (x 0).val = (k 0).val; rw [e10, hk0]; omega
  | ⟨1, _⟩ => show win0_1.index t 1 * 128 + 1 * (x 1).val = (k 1).val; rw [e11, hk1]; omega

/-- The self weights' block is the table. -/
theorem blk2_at (c : Dev nD) (t : Fin cfg0.N) (x : S128x128.Idx) :
    (iblk0 V c 2 t : Vec Ideal S128x128 .f32) x = (V c main_arg8 : S128x128.Idx → EReal) x := by
  obtain ⟨-, -, -, -, -, -, e20, e21, -⟩ := block_numbers t
  unfold iblk0
  rw [View.read_apply]
  show V c main_arg8 _ = V c main_arg8 _
  congr 1
  funext a
  apply Fin.ext
  match a with
  | ⟨0, _⟩ => show win0_2.index t 0 * 128 + 1 * (x 0).val = (x 0).val; rw [e20]; omega
  | ⟨1, _⟩ => show win0_2.index t 1 * 128 + 1 * (x 1).val = (x 1).val; rw [e21]; omega

/-- The neighbour weights' block is the table. -/
theorem blk3_at (c : Dev nD) (t : Fin cfg0.N) (x : S128x128.Idx) :
    (iblk0 V c 3 t : Vec Ideal S128x128 .f32) x = (V c main_arg9 : S128x128.Idx → EReal) x := by
  obtain ⟨-, -, -, -, -, -, -, -, e30, e31, -⟩ := block_numbers t
  unfold iblk0
  rw [View.read_apply]
  show V c main_arg9 _ = V c main_arg9 _
  congr 1
  funext a
  apply Fin.ext
  match a with
  | ⟨0, _⟩ => show win0_3.index t 0 * 128 + 1 * (x 0).val = (x 0).val; rw [e30]; omega
  | ⟨1, _⟩ => show win0_3.index t 1 * 128 + 1 * (x 1).val = (x 1).val; rw [e31]; omega

/-- The bias's block is the bias row. -/
theorem blk4_at (c : Dev nD) (t : Fin cfg0.N) (x : S1x128.Idx) :
    (iblk0 V c 4 t : Vec Ideal S1x128 .f32) x = (V c main_v20 : S1x128.Idx → EReal) x := by
  obtain ⟨-, -, -, -, -, -, -, -, -, -, e40, e41⟩ := block_numbers t
  unfold iblk0
  rw [View.read_apply]
  show V c main_v20 _ = V c main_v20 _
  congr 1
  funext a
  apply Fin.ext
  match a with
  | ⟨0, _⟩ => show win0_4.index t 0 * 1 + 1 * (x 0).val = (x 0).val; rw [e40]; omega
  | ⟨1, _⟩ => show win0_4.index t 1 * 128 + 1 * (x 1).val = (x 1).val; rw [e41]; omega

/-- WHAT POINT t WRITES BACK is block t of the layer of the whole tables. -/
theorem written_back (c : Dev nD) (t : Fin cfg0.N) :
    (dat0 V c).flushed 5 t = ((cfg0.win 5).blk t).view.read (Elt Ideal) (layer V c) := by
  obtain ⟨-, -, -, -, e50, e51, -⟩ := block_numbers t
  show (cfg0.win 5).cut (grid0.coords t) ((dat0 V c).after 5 t) = _
  rw [after0_5]
  unfold out0_5
  rw [View.canon_unit_zero hz]
  simp only [View.ld_unit_zero (S := S4096x128) hz, View.ld_unit_zero (S := S128x128) hz, View.ld_unit_zero (S := S1x128) hz]
  funext j
  show k0_pay1 (F := Ideal) (iblk0 V c 0 t) (iblk0 V c 1 t) (iblk0 V c 2 t) (iblk0 V c 3 t) (iblk0 V c 4 t) j
    = layer V c (((cfg0.win 5).blk t).view.emb j)
  rw [Cert.Sage.Pay0.pay_at]
  have hr : ((((cfg0.win 5).blk t).view.emb j) 0).val = 4096 * t.val + (j 0).val := by
    show win0_5.index t 0 * 4096 + 1 * (j 0).val = _; rw [e50]; omega
  have hc : ((((cfg0.win 5).blk t).view.emb j) 1).val = (j 1).val := by
    show win0_5.index t 1 * 128 + 1 * (j 1).val = _; rw [e51]; omega
  show _ = max (Cert.Sage.affineAt (N := 204800) (FO := 128) (V c main_v0) (V c main_v19) (V c main_arg8) (V c main_arg9) (V c main_v20)
      ⟨((((cfg0.win 5).blk t).view.emb j) 0).val, idx2_lt0 _⟩ ⟨((((cfg0.win 5).blk t).view.emb j) 1).val, idx2_lt1 _⟩) 0
  refine congrArg (max · 0) (Cert.Sage.affineAt_congr (N := 4096) (N' := 204800) (FO := 128)
    (iblk0 V c 0 t) (iblk0 V c 1 t) (iblk0 V c 2 t) (iblk0 V c 3 t) (iblk0 V c 4 t)
    (V c main_v0) (V c main_v19) (V c main_arg8) (V c main_arg9) (V c main_v20)
    ⟨(j 0).val, idx2_lt0 j⟩ ⟨((((cfg0.win 5).blk t).view.emb j) 0).val, idx2_lt0 _⟩
    ⟨(j 1).val, idx2_lt1 j⟩ ⟨((((cfg0.win 5).blk t).view.emb j) 1).val, idx2_lt1 _⟩
    (fun k => blk0_at V c t _ _ hr rfl) (fun k => blk1_at V c t _ _ hr rfl)
    (fun k => (blk2_at V c t _).trans (congrArg (V c main_arg8 : S128x128.Idx → EReal) (funext fun a => Fin.ext (by
      match a with
      | ⟨0, _⟩ => rfl
      | ⟨1, _⟩ => exact hc.symm))))
    (fun k => (blk3_at V c t _).trans (congrArg (V c main_arg9 : S128x128.Idx → EReal) (funext fun a => Fin.ext (by
      match a with
      | ⟨0, _⟩ => rfl
      | ⟨1, _⟩ => exact hc.symm))))
    ((blk4_at V c t _).trans (congrArg (V c main_v20 : S1x128.Idx → EReal) (funext fun a => Fin.ext (by
      match a with
      | ⟨0, _⟩ => rfl
      | ⟨1, _⟩ => exact hc.symm)))))

/-- An index of the result is in point t's block iff its row lies in the block's 4096 rows. -/
theorem in_block (t : Fin cfg0.N) (i : S204800x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v21).slice (win0_5.rect t)).set ↔ _
  rw [View.set_slice_whole, Rect.mem_set_unit]
  exact Iff.rfl

/-- Every row of the result is in some point's block: row r in block r / 4096. -/
theorem tiled (i : S204800x128.Idx) : ∃ t : Fin cfg0.N, (cfg0.win 5).flush t = true ∧ i ∈ ((cfg0.win 5).blk t).view.set := by
  have hi0 : (i 0).val < 204800 := (i 0).isLt
  have hi1 : (i 1).val < 128 := (i 1).isLt
  have hN : cfg0.N = 50 := N_0
  have ht : (i 0).val / 4096 < cfg0.N := by rw [hN]; omega
  obtain ⟨-, -, -, -, e50, e51, -⟩ := block_numbers ⟨(i 0).val / 4096, ht⟩
  refine ⟨⟨(i 0).val / 4096, ht⟩, flush0_5 _, ?_⟩
  rw [in_block]
  intro a
  match a with
  | ⟨0, _⟩ =>
    show win0_5.index ⟨(i 0).val / 4096, ht⟩ 0 * 4096 ≤ (i 0).val ∧ (i 0).val < win0_5.index ⟨(i 0).val / 4096, ht⟩ 0 * 4096 + 4096
    rw [e50]; show (i 0).val / 4096 * 4096 ≤ (i 0).val ∧ (i 0).val < (i 0).val / 4096 * 4096 + 4096; omega
  | ⟨1, _⟩ =>
    show win0_5.index ⟨(i 0).val / 4096, ht⟩ 1 * 128 ≤ (i 1).val ∧ (i 1).val < win0_5.index ⟨(i 0).val / 4096, ht⟩ 1 * 128 + 128
    rw [e51]; omega

/-- THE RESULT ARRAY after the call: the layer of the tables as the call found them. -/
theorem result (c : Dev nD) : (dat0 V c).arrAt 5 cfg0.N = layer V c :=
  (dat0 V c).arrAt_eq_of_cover 5 (layer V c) (fun t _ => written_back V c t) tiled

end Cert.Sage.Blocks0

end
-- ==== Proof.Host0.lean ====
/-
  The host operations before call 0, read off.

  Before the first call the program slices the first 204800 rows off the first feature table, forms the mean of each
  node's neighbours (a gather by source index, a scatter-add by destination index, a count of the destinations clamped
  below at one, a division) and lays the bias out as one row. These are the reference's own operations on the same
  arguments, in the same order, so each buffer the call reads holds the reference's value of that stage; the bias row
  holds the bias vector entry by entry; the weights are untouched.
-/
import proofs.«106127_j85255100826267_1_alg».proof.Proof.Gen.KernelIdeal.Launch
import proofs.«106127_j85255100826267_1_alg».proof.Proof.Gen.ReferenceIdeal.Read
import Idealize.ShloMosaic.Lib.StableHlo.Run
import Idealize.ShloMosaic.Lib.ValueLayout

set_option maxRecDepth 8192

noncomputable section

namespace Cert.Sage.Host0

open Idealize.ShloMosaic Idealize.ShloMosaic.TcCoe Idealize.ShloMosaic.ValueIdx Idealize.ShloMosaic.StableHlo
open Cert.KernelIdeal Cert.KernelIdeal.Gen

variable {F : FTy → Type} [FloatOps F]
variable (W : Valuation τ sig (Elt F))

/-- The call's own-features operand is the reference's slice of the first feature table. -/
theorem own : StableHlo.after (hostOps0 (F := F)) W (Proc.devRef .tc main_v0) = Cert.ReferenceIdeal.Read.val_main_v0 (F := F) (W (Proc.devRef .tc main_arg0)) := by
  after_results_simp
  rfl

/-- The call's neighbour operand is the reference's mean of the neighbours. -/
theorem mean : StableHlo.after (hostOps0 (F := F)) W (Proc.devRef .tc main_v19) = Cert.ReferenceIdeal.Read.val_main_v19 (F := F) (W (Proc.devRef .tc main_arg0)) (W (Proc.devRef .tc main_arg2)) (W (Proc.devRef .tc main_arg3)) := by
  after_results_simp
  rfl

/-- The call's bias operand is the bias vector laid out as one row. -/
theorem bias_row (j : Fin 128) :
    StableHlo.after (hostOps0 (F := F)) W (Proc.devRef .tc main_v20) (ix2 (n0 := 1) (n1 := 128) (0 : Fin 1) j) = W (Proc.devRef .tc main_arg10) (ix1 j) := by
  after_results_simp
  exact shapeCast_a_1a_apply (a := 128) _ _ (0 : Fin 1) j

theorem keeps_main_arg8 : StableHlo.after (hostOps0 (F := F)) W (Proc.devRef .tc main_arg8) = W (Proc.devRef .tc main_arg8) := by
  after_results_simp
theorem keeps_main_arg9 : StableHlo.after (hostOps0 (F := F)) W (Proc.devRef .tc main_arg9) = W (Proc.devRef .tc main_arg9) := by
  after_results_simp
theorem keeps_main_arg4 : StableHlo.after (hostOps0 (F := F)) W (Proc.devRef .tc main_arg4) = W (Proc.devRef .tc main_arg4) := by
  after_results_simp
theorem keeps_main_arg5 : StableHlo.after (hostOps0 (F := F)) W (Proc.devRef .tc main_arg5) = W (Proc.devRef .tc main_arg5) := by
  after_results_simp
theorem keeps_main_arg11 : StableHlo.after (hostOps0 (F := F)) W (Proc.devRef .tc main_arg11) = W (Proc.devRef .tc main_arg11) := by
  after_results_simp
theorem keeps_main_arg12 : StableHlo.after (hostOps0 (F := F)) W (Proc.devRef .tc main_arg12) = W (Proc.devRef .tc main_arg12) := by
  after_results_simp
theorem keeps_main_arg13 : StableHlo.after (hostOps0 (F := F)) W (Proc.devRef .tc main_arg13) = W (Proc.devRef .tc main_arg13) := by
  after_results_simp
theorem keeps_main_arg1 : StableHlo.after (hostOps0 (F := F)) W (Proc.devRef .tc main_arg1) = W (Proc.devRef .tc main_arg1) := by
  after_results_simp
theorem keeps_main_arg10 : StableHlo.after (hostOps0 (F := F)) W (Proc.devRef .tc main_arg10) = W (Proc.devRef .tc main_arg10) := by
  after_results_simp
theorem keeps_main_arg6 : StableHlo.after (hostOps0 (F := F)) W (Proc.devRef .tc main_arg6) = W (Proc.devRef .tc main_arg6) := by
  after_results_simp
theorem keeps_main_arg7 : StableHlo.after (hostOps0 (F := F)) W (Proc.devRef .tc main_arg7) = W (Proc.devRef .tc main_arg7) := by
  after_results_simp

end Cert.Sage.Host0

end
-- ==== Proof.RefLayer0.lean ====
/-
  The reference's layer 0, index by index.

  The reference computes a layer with two whole matrix products, their sum, the bias spread over the rows, and two clamps at zero.
  Read at a position (r, j) on the extended reals each product is the sum over the 128 input features of the row's entries
  times the column's, the bias is the bias at column j, and clamping twice is clamping once: the value is the layer's
  index-by-index function of the same tables. The bias may be handed over as a one-row table that agrees with the bias
  vector entry by entry.
-/
import proofs.«106127_j85255100826267_1_alg».proof.Proof.Gen.ReferenceIdeal.Read
import proofs.«106127_j85255100826267_1_alg».proof.Proof.Dense

noncomputable section

namespace Cert.Sage.Ref0

open Idealize.ShloMosaic Idealize.ShloMosaic.ValueIdx Cert.ReferenceIdeal Cert.ReferenceIdeal.Read

theorem lidx_l (i : S204800x128.Idx) (k : Fin 128) :
    lidx_main_v20 i k = ix2 (n0 := 204800) (n1 := 128) ⟨(i 0).val, idx2_lt0 i⟩ k :=
  funext fun a => Fin.ext (by match a with | ⟨0, _⟩ => rfl | ⟨1, _⟩ => rfl)
theorem ridx_l (i : S204800x128.Idx) (k : Fin 128) :
    ridx_main_v20 i k = ix2 (n0 := 128) (n1 := 128) k ⟨(i 1).val, idx2_lt1 i⟩ :=
  funext fun a => Fin.ext (by match a with | ⟨0, _⟩ => rfl | ⟨1, _⟩ => rfl)
theorem lidx_r (i : S204800x128.Idx) (k : Fin 128) :
    lidx_main_v21 i k = ix2 (n0 := 204800) (n1 := 128) ⟨(i 0).val, idx2_lt0 i⟩ k :=
  funext fun a => Fin.ext (by match a with | ⟨0, _⟩ => rfl | ⟨1, _⟩ => rfl)
theorem ridx_r (i : S204800x128.Idx) (k : Fin 128) :
    ridx_main_v21 i k = ix2 (n0 := 128) (n1 := 128) k ⟨(i 1).val, idx2_lt1 i⟩ :=
  funext fun a => Fin.ext (by match a with | ⟨0, _⟩ => rfl | ⟨1, _⟩ => rfl)
theorem idx_bias (i : S204800x128.Idx) :
    idx_main_v23 (idx_main_v24 i) = ix1 (n := 128) ⟨(i 1).val, idx2_lt1 i⟩ :=
  funext fun a => Fin.ext (by match a with | ⟨0, _⟩ => rfl)

/-- THE REFERENCE'S LAYER is the layer's index-by-index function of its two feature tables, the weights and the bias. -/
theorem layer_eq (x0 : (⟨S819200x128, .f32⟩ : BufTy).Contents (Elt Ideal)) (x2 : (⟨S2048000, .i32⟩ : BufTy).Contents (Elt Ideal)) (x3 : (⟨S2048000, .i32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal))
    (brow : (⟨2, ![1, 128]⟩ : Shape).Idx → EReal) (hb : ∀ j : Fin 128, brow (ix2 (0 : Fin 1) j) = x10 (ix1 j)) :
    val_main_v27 (F := Ideal) x0 x2 x3 x8 x9 x10
      = Cert.Sage.affineRelu (N := 204800) (FO := 128) (val_main_v0 (F := Ideal) x0) (val_main_v19 (F := Ideal) x0 x2 x3) x8 x9 brow := by
  funext i
  rw [val_main_v27_apply, val_main_v26_apply, val_main_v25_apply, val_main_v22_apply, val_main_v20_apply, val_main_v21_apply, val_main_v24_apply, val_main_v23_apply, val_main_call0_v0_apply, val_main_call0_cst_apply, val_main_call1_v0_apply, val_main_call1_cst_apply]
  simp only [lidx_l, ridx_l, lidx_r, ridx_r, idx_bias, Ideal.addf_def, Ideal.maximumf_def, Ideal.ofBits_def, Ideal.ofBits_zero_f32]
  rw [Cert.Sage.max_zero_idem]
  unfold Cert.Sage.affineRelu Cert.Sage.affineAt
  rw [hb]

end Cert.Sage.Ref0

end
-- ==== Proof.Pay1.lean ====
/-
  What the body of call 1 stores, read at one position of its block.

  The body multiplies a block of 4096 rows of the nodes' own features by the self weights and the matching block of
  the neighbours' means by the neighbour weights, each product accumulated from zero, adds the two, adds the bias row to
  every row. Narrowing the operands to a shorter float format before the
  products changes nothing on the extended reals, and a sum accumulated from zero is the sum. So position (p, q) of the
  stored block is the layer's value at row p of the block, column q.
-/
import proofs.«106127_j85255100826267_1_alg».proof.Proof.Gen.KernelIdeal.Skeleton
import proofs.«106127_j85255100826267_1_alg».proof.Proof.Dense
import Idealize.ShloMosaic.Lib.Pipeline.Value
import Idealize.ShloMosaic.Lib.ValueIdx
import Idealize.ShloMosaic.PureOps.Ideal.Laws

noncomputable section

namespace Cert.Sage.Pay1

open Idealize.ShloMosaic Idealize.ShloMosaic.ValueIdx Cert.KernelIdeal Cert.KernelIdeal.Gen

/-- The left operand of the body's product at output position `j` and feature `k` is position (row of j, k). -/
theorem lhs_at (j : S4096x64.Idx) (k : Fin 128) :
    dot_S4096x128_S128x64_S4096x64_1_0_0_1_n_n.lhsIdx j ((contrEquiv1 dot_S4096x128_S128x64_S4096x64_1_0_0_1_n_n 128 rfl rfl).symm k) = ix2 (n0 := 4096) (n1 := 128) ⟨(j 0).val, idx2_lt0 j⟩ k := by
  have hk := contrEquiv1_symm_val dot_S4096x128_S128x64_S4096x64_1_0_0_1_n_n 128 rfl rfl k
  funext a
  apply Fin.ext
  match a with
  | ⟨0, _⟩ =>
    show (dot_S4096x128_S128x64_S4096x64_1_0_0_1_n_n.lhsIdx j _ 0).val = (j 0).val
    unfold DotDims.lhsIdx
    rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
    rfl
  | ⟨1, _⟩ => exact (dot_S4096x128_S128x64_S4096x64_1_0_0_1_n_n.lhsIdx_val_of_single rfl j _).trans hk

/-- The right operand at output position `j` and feature `k` is position (k, column of j). -/
theorem rhs_at (j : S4096x64.Idx) (k : Fin 128) :
    dot_S4096x128_S128x64_S4096x64_1_0_0_1_n_n.rhsIdx j ((contrEquiv1 dot_S4096x128_S128x64_S4096x64_1_0_0_1_n_n 128 rfl rfl).symm k) = ix2 (n0 := 128) (n1 := 64) k ⟨(j 1).val, idx2_lt1 j⟩ := by
  have hk := contrEquiv1_symm_val dot_S4096x128_S128x64_S4096x64_1_0_0_1_n_n 128 rfl rfl k
  funext a
  apply Fin.ext
  match a with
  | ⟨0, _⟩ => exact (dot_S4096x128_S128x64_S4096x64_1_0_0_1_n_n.rhsIdx_val_of_single rfl j _).trans hk
  | ⟨1, _⟩ =>
    show (dot_S4096x128_S128x64_S4096x64_1_0_0_1_n_n.rhsIdx j _ 1).val = (j 1).val
    unfold DotDims.rhsIdx
    rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
    rfl

/-- A product accumulated from zero, at a position: the sum over the 128 features. -/
theorem product_at (x : FVec Ideal S4096x128 .bf16) (w : FVec Ideal S128x64 .bf16) (j : S4096x64.Idx) :
    matmul (F := Ideal) dot_S4096x128_S128x64_S4096x64_1_0_0_1_n_n none x w (constant S4096x64 .f32 0x00000000#32) j
      = ∑ k : Fin 128, x (ix2 (n0 := 4096) (n1 := 128) ⟨(j 0).val, idx2_lt0 j⟩ k) * w (ix2 (n0 := 128) (n1 := 64) k ⟨(j 1).val, idx2_lt1 j⟩) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  rw [lhs_at, rhs_at]

/-- The bias row spread over the block's rows, at a position: the bias at the position's column. -/
theorem bias_at (b : FVec Ideal S1x64 .f32) (j : S4096x64.Idx) :
    broadcastTo S4096x64 b broadcasts_S1x64_S4096x64 j = b (ix2 (n0 := 1) (n1 := 64) (0 : Fin 1) ⟨(j 1).val, idx2_lt1 j⟩) :=
  broadcastTo_apply b broadcasts_S1x64_S4096x64 j _ (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- THE STORED BLOCK at position `j`: the layer's value there. -/
theorem pay_at (x0 x1 : Vec Ideal S4096x128 .f32) (x2 x3 : Vec Ideal S128x64 .f32) (x4 : Vec Ideal S1x64 .f32) (j : S4096x64.Idx) :
    k1_pay1 (F := Ideal) x0 x1 x2 x3 x4 j
      = Cert.Sage.affineAt (N := 4096) (FO := 64) x0 x1 x2 x3 x4 ⟨(j 0).val, idx2_lt0 j⟩ ⟨(j 1).val, idx2_lt1 j⟩ := by
  unfold k1_pay1
  simp only [shapeCast_self]
  rw [addf_apply, addf_apply, product_at, product_at, bias_at]
  rfl

end Cert.Sage.Pay1

end
-- ==== Proof.Blocks1.lean ====
/-
  Call 1: from what each grid point writes back to the whole result array.

  The call walks 10 grid points; point t reads rows 4096·t … 4096·t + 4095 of the two feature tables and the whole of the
  two weight tables and of the bias row, and writes back rows 4096·t … 4096·t + 4095 of the result. A row of the layer
  depends only on the same row of the feature tables, so what point t writes back is exactly block t of the layer applied
  to the whole tables; the 10 blocks tile the result, so after the call the result array is the layer of the tables as the
  call found them — for any contents `V` of memory at the call's entry.
-/
import proofs.«106127_j85255100826267_1_alg».proof.Proof.Gen.KernelIdeal.Frame
import proofs.«106127_j85255100826267_1_alg».proof.Proof.Pay1
import Idealize.ShloMosaic.Lib.Pipeline.Value
import Idealize.ShloMosaic.Lib.Tactic

set_option maxRecDepth 16384

noncomputable section

namespace Cert.Sage.Blocks1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the feature tables' and the result's block is number t along the
    rows; the weights' and the bias's is the one block there is. -/
theorem block_numbers : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_5.index t (0 : Fin 2) = t.val
    ∧ win1_5.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-- The layer of the whole tables as the call finds them. -/
abbrev layer (c : Dev nD) : S40960x64.Idx → EReal :=
  Cert.Sage.affine (N := 40960) (FO := 64) (V c main_v22) (V c main_v41) (V c main_arg11) (V c main_arg12) (V c main_v42)

/-- A position of the own-features block at point t is a position of the table, 4096·t rows down. -/
theorem blk0_at (c : Dev nD) (t : Fin cfg1.N) (x : S4096x128.Idx) (k : S40960x128.Idx)
    (hk0 : (k 0).val = 4096 * t.val + (x 0).val) (hk1 : (k 1).val = (x 1).val) :
    (iblk1 V c 0 t : Vec Ideal S4096x128 .f32) x = (V c main_v22 : S40960x128.Idx → EReal) k := by
  obtain ⟨e00, e01, -⟩ := block_numbers t
  unfold iblk1
  rw [View.read_apply]
  show V c main_v22 _ = V c main_v22 _
  congr 1
  funext a
  apply Fin.ext
  match a with
  | ⟨0, _⟩ => show win1_0.index t 0 * 4096 + 1 * (x 0).val = (k 0).val; rw [e00, hk0]; omega
  | ⟨1, _⟩ => show win1_0.index t 1 * 128 + 1 * (x 1).val = (k 1).val; rw [e01, hk1]; omega

/-- The same for the neighbour-means block. -/
theorem blk1_at (c : Dev nD) (t : Fin cfg1.N) (x : S4096x128.Idx) (k : S40960x128.Idx)
    (hk0 : (k 0).val = 4096 * t.val + (x 0).val) (hk1 : (k 1).val = (x 1).val) :
    (iblk1 V c 1 t : Vec Ideal S4096x128 .f32) x = (V c main_v41 : S40960x128.Idx → EReal) k := by
  obtain ⟨-, -, e10, e11, -⟩ := block_numbers t
  unfold iblk1
  rw [View.read_apply]
  show V c main_v41 _ = V c main_v41 _
  congr 1
  funext a
  apply Fin.ext
  match a with
  | ⟨0, _⟩ => show win1_1.index t 0 * 4096 + 1 * (x 0).val = (k 0).val; rw [e10, hk0]; omega
  | ⟨1, _⟩ => show win1_1.index t 1 * 128 + 1 * (x 1).val = (k 1).val; rw [e11, hk1]; omega

/-- The self weights' block is the table. -/
theorem blk2_at (c : Dev nD) (t : Fin cfg1.N) (x : S128x64.Idx) :
    (iblk1 V c 2 t : Vec Ideal S128x64 .f32) x = (V c main_arg11 : S128x64.Idx → EReal) x := by
  obtain ⟨-, -, -, -, -, -, e20, e21, -⟩ := block_numbers t
  unfold iblk1
  rw [View.read_apply]
  show V c main_arg11 _ = V c main_arg11 _
  congr 1
  funext a
  apply Fin.ext
  match a with
  | ⟨0, _⟩ => show win1_2.index t 0 * 128 + 1 * (x 0).val = (x 0).val; rw [e20]; omega
  | ⟨1, _⟩ => show win1_2.index t 1 * 64 + 1 * (x 1).val = (x 1).val; rw [e21]; omega

/-- The neighbour weights' block is the table. -/
theorem blk3_at (c : Dev nD) (t : Fin cfg1.N) (x : S128x64.Idx) :
    (iblk1 V c 3 t : Vec Ideal S128x64 .f32) x = (V c main_arg12 : S128x64.Idx → EReal) x := by
  obtain ⟨-, -, -, -, -, -, -, -, e30, e31, -⟩ := block_numbers t
  unfold iblk1
  rw [View.read_apply]
  show V c main_arg12 _ = V c main_arg12 _
  congr 1
  funext a
  apply Fin.ext
  match a with
  | ⟨0, _⟩ => show win1_3.index t 0 * 128 + 1 * (x 0).val = (x 0).val; rw [e30]; omega
  | ⟨1, _⟩ => show win1_3.index t 1 * 64 + 1 * (x 1).val = (x 1).val; rw [e31]; omega

/-- The bias's block is the bias row. -/
theorem blk4_at (c : Dev nD) (t : Fin cfg1.N) (x : S1x64.Idx) :
    (iblk1 V c 4 t : Vec Ideal S1x64 .f32) x = (V c main_v42 : S1x64.Idx → EReal) x := by
  obtain ⟨-, -, -, -, -, -, -, -, -, -, e40, e41⟩ := block_numbers t
  unfold iblk1
  rw [View.read_apply]
  show V c main_v42 _ = V c main_v42 _
  congr 1
  funext a
  apply Fin.ext
  match a with
  | ⟨0, _⟩ => show win1_4.index t 0 * 1 + 1 * (x 0).val = (x 0).val; rw [e40]; omega
  | ⟨1, _⟩ => show win1_4.index t 1 * 64 + 1 * (x 1).val = (x 1).val; rw [e41]; omega

/-- WHAT POINT t WRITES BACK is block t of the layer of the whole tables. -/
theorem written_back (c : Dev nD) (t : Fin cfg1.N) :
    (dat1 V c).flushed 5 t = ((cfg1.win 5).blk t).view.read (Elt Ideal) (layer V c) := by
  obtain ⟨-, -, -, -, e50, e51, -⟩ := block_numbers t
  show (cfg1.win 5).cut (grid1.coords t) ((dat1 V c).after 5 t) = _
  rw [after1_5]
  unfold out1_5
  rw [View.canon_unit_zero hz]
  simp only [View.ld_unit_zero (S := S4096x128) hz, View.ld_unit_zero (S := S128x64) hz, View.ld_unit_zero (S := S1x64) hz]
  funext j
  show k1_pay1 (F := Ideal) (iblk1 V c 0 t) (iblk1 V c 1 t) (iblk1 V c 2 t) (iblk1 V c 3 t) (iblk1 V c 4 t) j
    = layer V c (((cfg1.win 5).blk t).view.emb j)
  rw [Cert.Sage.Pay1.pay_at]
  have hr : ((((cfg1.win 5).blk t).view.emb j) 0).val = 4096 * t.val + (j 0).val := by
    show win1_5.index t 0 * 4096 + 1 * (j 0).val = _; rw [e50]; omega
  have hc : ((((cfg1.win 5).blk t).view.emb j) 1).val = (j 1).val := by
    show win1_5.index t 1 * 64 + 1 * (j 1).val = _; rw [e51]; omega
  show _ = Cert.Sage.affineAt (N := 40960) (FO := 64) (V c main_v22) (V c main_v41) (V c main_arg11) (V c main_arg12) (V c main_v42)
      ⟨((((cfg1.win 5).blk t).view.emb j) 0).val, idx2_lt0 _⟩ ⟨((((cfg1.win 5).blk t).view.emb j) 1).val, idx2_lt1 _⟩
  refine (Cert.Sage.affineAt_congr (N := 4096) (N' := 40960) (FO := 64)
    (iblk1 V c 0 t) (iblk1 V c 1 t) (iblk1 V c 2 t) (iblk1 V c 3 t) (iblk1 V c 4 t)
    (V c main_v22) (V c main_v41) (V c main_arg11) (V c main_arg12) (V c main_v42)
    ⟨(j 0).val, idx2_lt0 j⟩ ⟨((((cfg1.win 5).blk t).view.emb j) 0).val, idx2_lt0 _⟩
    ⟨(j 1).val, idx2_lt1 j⟩ ⟨((((cfg1.win 5).blk t).view.emb j) 1).val, idx2_lt1 _⟩
    (fun k => blk0_at V c t _ _ hr rfl) (fun k => blk1_at V c t _ _ hr rfl)
    (fun k => (blk2_at V c t _).trans (congrArg (V c main_arg11 : S128x64.Idx → EReal) (funext fun a => Fin.ext (by
      match a with
      | ⟨0, _⟩ => rfl
      | ⟨1, _⟩ => exact hc.symm))))
    (fun k => (blk3_at V c t _).trans (congrArg (V c main_arg12 : S128x64.Idx → EReal) (funext fun a => Fin.ext (by
      match a with
      | ⟨0, _⟩ => rfl
      | ⟨1, _⟩ => exact hc.symm))))
    ((blk4_at V c t _).trans (congrArg (V c main_v42 : S1x64.Idx → EReal) (funext fun a => Fin.ext (by
      match a with
      | ⟨0, _⟩ => rfl
      | ⟨1, _⟩ => exact hc.symm)))))

/-- An index of the result is in point t's block iff its row lies in the block's 4096 rows. -/
theorem in_block (t : Fin cfg1.N) (i : S40960x64.Idx) :
    i ∈ ((cfg1.win 5).blk t).view.set ↔ ∀ a : Fin 2, win1_5.index t a * S4096x64.size a ≤ (i a).val ∧ (i a).val < win1_5.index t a * S4096x64.size a + S4096x64.size a := by
  show i ∈ ((View.whole main_v43).slice (win1_5.rect t)).set ↔ _
  rw [View.set_slice_whole, Rect.mem_set_unit]
  exact Iff.rfl

/-- Every row of the result is in some point's block: row r in block r / 4096. -/
theorem tiled (i : S40960x64.Idx) : ∃ t : Fin cfg1.N, (cfg1.win 5).flush t = true ∧ i ∈ ((cfg1.win 5).blk t).view.set := by
  have hi0 : (i 0).val < 40960 := (i 0).isLt
  have hi1 : (i 1).val < 64 := (i 1).isLt
  have hN : cfg1.N = 10 := N_1
  have ht : (i 0).val / 4096 < cfg1.N := by rw [hN]; omega
  obtain ⟨-, -, -, -, e50, e51, -⟩ := block_numbers ⟨(i 0).val / 4096, ht⟩
  refine ⟨⟨(i 0).val / 4096, ht⟩, flush1_5 _, ?_⟩
  rw [in_block]
  intro a
  match a with
  | ⟨0, _⟩ =>
    show win1_5.index ⟨(i 0).val / 4096, ht⟩ 0 * 4096 ≤ (i 0).val ∧ (i 0).val < win1_5.index ⟨(i 0).val / 4096, ht⟩ 0 * 4096 + 4096
    rw [e50]; show (i 0).val / 4096 * 4096 ≤ (i 0).val ∧ (i 0).val < (i 0).val / 4096 * 4096 + 4096; omega
  | ⟨1, _⟩ =>
    show win1_5.index ⟨(i 0).val / 4096, ht⟩ 1 * 64 ≤ (i 1).val ∧ (i 1).val < win1_5.index ⟨(i 0).val / 4096, ht⟩ 1 * 64 + 64
    rw [e51]; omega

/-- THE RESULT ARRAY after the call: the layer of the tables as the call found them. -/
theorem result (c : Dev nD) : (dat1 V c).arrAt 5 cfg1.N = layer V c :=
  (dat1 V c).arrAt_eq_of_cover 5 (layer V c) (fun t _ => written_back V c t) tiled

end Cert.Sage.Blocks1

end
-- ==== Proof.Host1.lean ====
/-
  The host operations between call 0 and call 1, read off.

  Between the first two calls the program slices the first 40960 rows off the hidden table that call 0 produced, forms
  the mean of each node's neighbours in that table (gather, scatter-add, clamped count, division) and lays the second
  bias out as one row. If the hidden table holds the reference's hidden table, each buffer call 1 reads holds the
  reference's value of that stage: the operations are the reference's own, in the same order.
-/
import proofs.«106127_j85255100826267_1_alg».proof.Proof.Gen.KernelIdeal.Launch
import proofs.«106127_j85255100826267_1_alg».proof.Proof.Gen.ReferenceIdeal.Read
import Idealize.ShloMosaic.Lib.StableHlo.Run
import Idealize.ShloMosaic.Lib.ValueLayout

set_option maxRecDepth 8192

noncomputable section

namespace Cert.Sage.Host1

open Idealize.ShloMosaic Idealize.ShloMosaic.TcCoe Idealize.ShloMosaic.ValueIdx Idealize.ShloMosaic.StableHlo
open Cert.KernelIdeal Cert.KernelIdeal.Gen

variable {F : FTy → Type} [FloatOps F]
variable (W : Valuation τ sig (Elt F))

variable (x0 : (⟨Cert.ReferenceIdeal.S819200x128, .f32⟩ : BufTy).Contents (Elt F)) (x2 : (⟨Cert.ReferenceIdeal.S2048000, .i32⟩ : BufTy).Contents (Elt F)) (x3 : (⟨Cert.ReferenceIdeal.S2048000, .i32⟩ : BufTy).Contents (Elt F)) (x8 : (⟨Cert.ReferenceIdeal.S128x128, .f32⟩ : BufTy).Contents (Elt F)) (x9 : (⟨Cert.ReferenceIdeal.S128x128, .f32⟩ : BufTy).Contents (Elt F)) (x10 : (⟨Cert.ReferenceIdeal.S128, .f32⟩ : BufTy).Contents (Elt F))

/-- The call's own-features operand is the reference's slice of the hidden table. -/
theorem own (h21 : W (Proc.devRef .tc main_v21) = Cert.ReferenceIdeal.Read.val_main_v27 (F := F) x0 x2 x3 x8 x9 x10) :
    StableHlo.after (hostOps1 (F := F)) W (Proc.devRef .tc main_v22) = Cert.ReferenceIdeal.Read.val_main_v28 (F := F) x0 x2 x3 x8 x9 x10 := by
  after_results_simp
  rw [h21]
  rfl

/-- The call's neighbour operand is the reference's mean of the neighbours in the hidden table. -/
theorem mean (h21 : W (Proc.devRef .tc main_v21) = Cert.ReferenceIdeal.Read.val_main_v27 (F := F) x0 x2 x3 x8 x9 x10) :
    StableHlo.after (hostOps1 (F := F)) W (Proc.devRef .tc main_v41) = Cert.ReferenceIdeal.Read.val_main_v47 (F := F) x0 x2 x3 (W (Proc.devRef .tc main_arg4)) (W (Proc.devRef .tc main_arg5)) x8 x9 x10 := by
  after_results_simp
  rw [h21]
  rfl

/-- The call's bias operand is the second bias vector laid out as one row. -/
theorem bias_row (j : Fin 64) :
    StableHlo.after (hostOps1 (F := F)) W (Proc.devRef .tc main_v42) (ix2 (n0 := 1) (n1 := 64) (0 : Fin 1) j) = W (Proc.devRef .tc main_arg13) (ix1 j) := by
  after_results_simp
  exact shapeCast_a_1a_apply (a := 64) _ _ (0 : Fin 1) j

theorem keeps_main_arg11 : StableHlo.after (hostOps1 (F := F)) W (Proc.devRef .tc main_arg11) = W (Proc.devRef .tc main_arg11) := by
  after_results_simp
theorem keeps_main_arg12 : StableHlo.after (hostOps1 (F := F)) W (Proc.devRef .tc main_arg12) = W (Proc.devRef .tc main_arg12) := by
  after_results_simp
theorem keeps_main_arg1 : StableHlo.after (hostOps1 (F := F)) W (Proc.devRef .tc main_arg1) = W (Proc.devRef .tc main_arg1) := by
  after_results_simp
theorem keeps_main_arg4 : StableHlo.after (hostOps1 (F := F)) W (Proc.devRef .tc main_arg4) = W (Proc.devRef .tc main_arg4) := by
  after_results_simp
theorem keeps_main_arg5 : StableHlo.after (hostOps1 (F := F)) W (Proc.devRef .tc main_arg5) = W (Proc.devRef .tc main_arg5) := by
  after_results_simp
theorem keeps_main_arg10 : StableHlo.after (hostOps1 (F := F)) W (Proc.devRef .tc main_arg10) = W (Proc.devRef .tc main_arg10) := by
  after_results_simp
theorem keeps_main_arg8 : StableHlo.after (hostOps1 (F := F)) W (Proc.devRef .tc main_arg8) = W (Proc.devRef .tc main_arg8) := by
  after_results_simp
theorem keeps_main_arg9 : StableHlo.after (hostOps1 (F := F)) W (Proc.devRef .tc main_arg9) = W (Proc.devRef .tc main_arg9) := by
  after_results_simp
theorem keeps_main_arg6 : StableHlo.after (hostOps1 (F := F)) W (Proc.devRef .tc main_arg6) = W (Proc.devRef .tc main_arg6) := by
  after_results_simp
theorem keeps_main_arg7 : StableHlo.after (hostOps1 (F := F)) W (Proc.devRef .tc main_arg7) = W (Proc.devRef .tc main_arg7) := by
  after_results_simp
theorem keeps_main_arg13 : StableHlo.after (hostOps1 (F := F)) W (Proc.devRef .tc main_arg13) = W (Proc.devRef .tc main_arg13) := by
  after_results_simp

end Cert.Sage.Host1

end
-- ==== Proof.RefLayer1.lean ====
/-
  The reference's layer 1, index by index.

  The reference computes a layer with two whole matrix products, their sum, the bias spread over the rows.
  Read at a position (r, j) on the extended reals each product is the sum over the 128 input features of the row's entries
  times the column's, the bias is the bias at column j: the value is the layer's
  index-by-index function of the same tables. The bias may be handed over as a one-row table that agrees with the bias
  vector entry by entry.
-/
import proofs.«106127_j85255100826267_1_alg».proof.Proof.Gen.ReferenceIdeal.Read
import proofs.«106127_j85255100826267_1_alg».proof.Proof.Dense

noncomputable section

namespace Cert.Sage.Ref1

open Idealize.ShloMosaic Idealize.ShloMosaic.ValueIdx Cert.ReferenceIdeal Cert.ReferenceIdeal.Read

theorem lidx_l (i : S40960x64.Idx) (k : Fin 128) :
    lidx_main_v48 i k = ix2 (n0 := 40960) (n1 := 128) ⟨(i 0).val, idx2_lt0 i⟩ k :=
  funext fun a => Fin.ext (by match a with | ⟨0, _⟩ => rfl | ⟨1, _⟩ => rfl)
theorem ridx_l (i : S40960x64.Idx) (k : Fin 128) :
    ridx_main_v48 i k = ix2 (n0 := 128) (n1 := 64) k ⟨(i 1).val, idx2_lt1 i⟩ :=
  funext fun a => Fin.ext (by match a with | ⟨0, _⟩ => rfl | ⟨1, _⟩ => rfl)
theorem lidx_r (i : S40960x64.Idx) (k : Fin 128) :
    lidx_main_v49 i k = ix2 (n0 := 40960) (n1 := 128) ⟨(i 0).val, idx2_lt0 i⟩ k :=
  funext fun a => Fin.ext (by match a with | ⟨0, _⟩ => rfl | ⟨1, _⟩ => rfl)
theorem ridx_r (i : S40960x64.Idx) (k : Fin 128) :
    ridx_main_v49 i k = ix2 (n0 := 128) (n1 := 64) k ⟨(i 1).val, idx2_lt1 i⟩ :=
  funext fun a => Fin.ext (by match a with | ⟨0, _⟩ => rfl | ⟨1, _⟩ => rfl)
theorem idx_bias (i : S40960x64.Idx) :
    idx_main_v51 (idx_main_v52 i) = ix1 (n := 64) ⟨(i 1).val, idx2_lt1 i⟩ :=
  funext fun a => Fin.ext (by match a with | ⟨0, _⟩ => rfl)

/-- THE REFERENCE'S LAYER is the layer's index-by-index function of its two feature tables, the weights and the bias. -/
theorem layer_eq (x0 : (⟨S819200x128, .f32⟩ : BufTy).Contents (Elt Ideal)) (x2 : (⟨S2048000, .i32⟩ : BufTy).Contents (Elt Ideal)) (x3 : (⟨S2048000, .i32⟩ : BufTy).Contents (Elt Ideal)) (x4 : (⟨S409600, .i32⟩ : BufTy).Contents (Elt Ideal)) (x5 : (⟨S409600, .i32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S128x64, .f32⟩ : BufTy).Contents (Elt Ideal)) (x13 : (⟨S64, .f32⟩ : BufTy).Contents (Elt Ideal))
    (brow : (⟨2, ![1, 64]⟩ : Shape).Idx → EReal) (hb : ∀ j : Fin 64, brow (ix2 (0 : Fin 1) j) = x13 (ix1 j)) :
    val_main_v53 (F := Ideal) x0 x2 x3 x4 x5 x8 x9 x10 x11 x12 x13
      = Cert.Sage.affine (N := 40960) (FO := 64) (val_main_v28 (F := Ideal) x0 x2 x3 x8 x9 x10) (val_main_v47 (F := Ideal) x0 x2 x3 x4 x5 x8 x9 x10) x11 x12 brow := by
  funext i
  rw [val_main_v53_apply, val_main_v50_apply, val_main_v48_apply, val_main_v49_apply, val_main_v52_apply, val_main_v51_apply]
  simp only [lidx_l, ridx_l, lidx_r, ridx_r, idx_bias, Ideal.addf_def, Ideal.maximumf_def, Ideal.ofBits_def, Ideal.ofBits_zero_f32]
  unfold Cert.Sage.affine Cert.Sage.affineAt
  rw [hb]

end Cert.Sage.Ref1

end
-- ==== Proof.Pay2.lean ====
/-
  What the body of call 2 stores, read at one position of its block.

  The body multiplies a block of 4096 rows of the nodes' own features by the self weights and the matching block of
  the neighbours' means by the neighbour weights, each product accumulated from zero, adds the two, adds the bias row to
  every row, and clamps below at zero. Narrowing the operands to a shorter float format before the
  products changes nothing on the extended reals, and a sum accumulated from zero is the sum. So position (p, q) of the
  stored block is the layer's value at row p of the block, column q.
-/
import proofs.«106127_j85255100826267_1_alg».proof.Proof.Gen.KernelIdeal.Skeleton
import proofs.«106127_j85255100826267_1_alg».proof.Proof.Dense
import Idealize.ShloMosaic.Lib.Pipeline.Value
import Idealize.ShloMosaic.Lib.ValueIdx
import Idealize.ShloMosaic.PureOps.Ideal.Laws

noncomputable section

namespace Cert.Sage.Pay2

open Idealize.ShloMosaic Idealize.ShloMosaic.ValueIdx Cert.KernelIdeal Cert.KernelIdeal.Gen

/-- The left operand of the body's product at output position `j` and feature `k` is position (row of j, k). -/
theorem lhs_at (j : S4096x128.Idx) (k : Fin 128) :
    dot_S4096x128_S128x128_S4096x128_1_0_0_1_n_n.lhsIdx j ((contrEquiv1 dot_S4096x128_S128x128_S4096x128_1_0_0_1_n_n 128 rfl rfl).symm k) = ix2 (n0 := 4096) (n1 := 128) ⟨(j 0).val, idx2_lt0 j⟩ k := by
  have hk := contrEquiv1_symm_val dot_S4096x128_S128x128_S4096x128_1_0_0_1_n_n 128 rfl rfl k
  funext a
  apply Fin.ext
  match a with
  | ⟨0, _⟩ =>
    show (dot_S4096x128_S128x128_S4096x128_1_0_0_1_n_n.lhsIdx j _ 0).val = (j 0).val
    unfold DotDims.lhsIdx
    rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
    rfl
  | ⟨1, _⟩ => exact (dot_S4096x128_S128x128_S4096x128_1_0_0_1_n_n.lhsIdx_val_of_single rfl j _).trans hk

/-- The right operand at output position `j` and feature `k` is position (k, column of j). -/
theorem rhs_at (j : S4096x128.Idx) (k : Fin 128) :
    dot_S4096x128_S128x128_S4096x128_1_0_0_1_n_n.rhsIdx j ((contrEquiv1 dot_S4096x128_S128x128_S4096x128_1_0_0_1_n_n 128 rfl rfl).symm k) = ix2 (n0 := 128) (n1 := 128) k ⟨(j 1).val, idx2_lt1 j⟩ := by
  have hk := contrEquiv1_symm_val dot_S4096x128_S128x128_S4096x128_1_0_0_1_n_n 128 rfl rfl k
  funext a
  apply Fin.ext
  match a with
  | ⟨0, _⟩ => exact (dot_S4096x128_S128x128_S4096x128_1_0_0_1_n_n.rhsIdx_val_of_single rfl j _).trans hk
  | ⟨1, _⟩ =>
    show (dot_S4096x128_S128x128_S4096x128_1_0_0_1_n_n.rhsIdx j _ 1).val = (j 1).val
    unfold DotDims.rhsIdx
    rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
    rfl

/-- A product accumulated from zero, at a position: the sum over the 128 features. -/
theorem product_at (x : FVec Ideal S4096x128 .bf16) (w : FVec Ideal S128x128 .bf16) (j : S4096x128.Idx) :
    matmul (F := Ideal) dot_S4096x128_S128x128_S4096x128_1_0_0_1_n_n none x w (constant S4096x128 .f32 0x00000000#32) j
      = ∑ k : Fin 128, x (ix2 (n0 := 4096) (n1 := 128) ⟨(j 0).val, idx2_lt0 j⟩ k) * w (ix2 (n0 := 128) (n1 := 128) k ⟨(j 1).val, idx2_lt1 j⟩) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  rw [lhs_at, rhs_at]

/-- The bias row spread over the block's rows, at a position: the bias at the position's column. -/
theorem bias_at (b : FVec Ideal S1x128 .f32) (j : S4096x128.Idx) :
    broadcastTo S4096x128 b broadcasts_S1x128_S4096x128 j = b (ix2 (n0 := 1) (n1 := 128) (0 : Fin 1) ⟨(j 1).val, idx2_lt1 j⟩) :=
  broadcastTo_apply b broadcasts_S1x128_S4096x128 j _ (fun a => match a with
    | ⟨0, _⟩ => by show (0 : Nat) = if (1 : Nat) = 1 then 0 else (j 0).val; rw [if_pos rfl]
    | ⟨1, _⟩ => by show (j 1).val = if (128 : Nat) = 1 then 0 else (j 1).val; rw [if_neg (by decide)])

/-- THE STORED BLOCK at position `j`: the layer's value there. -/
theorem pay_at (x0 x1 : Vec Ideal S4096x128 .f32) (x2 x3 : Vec Ideal S128x128 .f32) (x4 : Vec Ideal S1x128 .f32) (j : S4096x128.Idx) :
    k2_pay1 (F := Ideal) x0 x1 x2 x3 x4 j
      = max (Cert.Sage.affineAt (N := 4096) (FO := 128) x0 x1 x2 x3 x4 ⟨(j 0).val, idx2_lt0 j⟩ ⟨(j 1).val, idx2_lt1 j⟩) 0 := by
  unfold k2_pay1
  simp only [shapeCast_self]
  rw [maximumf_apply, broadcast_apply, addf_apply, addf_apply, product_at, product_at, bias_at]
  show max _ (Ideal.ofBits .f32 0x00000000#32) = _
  rw [Ideal.ofBits_zero_f32]
  rfl

end Cert.Sage.Pay2

end
-- ==== Proof.Blocks2.lean ====
/-
  Call 2: from what each grid point writes back to the whole result array.

  The call walks 10 grid points; point t reads rows 4096·t … 4096·t + 4095 of the two feature tables and the whole of the
  two weight tables and of the bias row, and writes back rows 4096·t … 4096·t + 4095 of the result. A row of the layer
  depends only on the same row of the feature tables, so what point t writes back is exactly block t of the layer applied
  to the whole tables; the 10 blocks tile the result, so after the call the result array is the layer of the tables as the
  call found them — for any contents `V` of memory at the call's entry.
-/
import proofs.«106127_j85255100826267_1_alg».proof.Proof.Gen.KernelIdeal.Frame
import proofs.«106127_j85255100826267_1_alg».proof.Proof.Pay2
import Idealize.ShloMosaic.Lib.Pipeline.Value
import Idealize.ShloMosaic.Lib.Tactic

set_option maxRecDepth 16384

noncomputable section

namespace Cert.Sage.Blocks2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the feature tables' and the result's block is number t along the
    rows; the weights' and the bias's is the one block there is. -/
theorem block_numbers : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_5.index t (0 : Fin 2) = t.val
    ∧ win2_5.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0 :=
  (by decide +kernel : ∀ t : Fin grid2.N, _)

/-- The layer of the whole tables as the call finds them. -/
abbrev layer (c : Dev nD) : S40960x128.Idx → EReal :=
  Cert.Sage.affineRelu (N := 40960) (FO := 128) (V c main_v44) (V c main_v63) (V c main_arg8) (V c main_arg9) (V c main_v64)

/-- A position of the own-features block at point t is a position of the table, 4096·t rows down. -/
theorem blk0_at (c : Dev nD) (t : Fin cfg2.N) (x : S4096x128.Idx) (k : S40960x128.Idx)
    (hk0 : (k 0).val = 4096 * t.val + (x 0).val) (hk1 : (k 1).val = (x 1).val) :
    (iblk2 V c 0 t : Vec Ideal S4096x128 .f32) x = (V c main_v44 : S40960x128.Idx → EReal) k := by
  obtain ⟨e00, e01, -⟩ := block_numbers t
  unfold iblk2
  rw [View.read_apply]
  show V c main_v44 _ = V c main_v44 _
  congr 1
  funext a
  apply Fin.ext
  match a with
  | ⟨0, _⟩ => show win2_0.index t 0 * 4096 + 1 * (x 0).val = (k 0).val; rw [e00, hk0]; omega
  | ⟨1, _⟩ => show win2_0.index t 1 * 128 + 1 * (x 1).val = (k 1).val; rw [e01, hk1]; omega

/-- The same for the neighbour-means block. -/
theorem blk1_at (c : Dev nD) (t : Fin cfg2.N) (x : S4096x128.Idx) (k : S40960x128.Idx)
    (hk0 : (k 0).val = 4096 * t.val + (x 0).val) (hk1 : (k 1).val = (x 1).val) :
    (iblk2 V c 1 t : Vec Ideal S4096x128 .f32) x = (V c main_v63 : S40960x128.Idx → EReal) k := by
  obtain ⟨-, -, e10, e11, -⟩ := block_numbers t
  unfold iblk2
  rw [View.read_apply]
  show V c main_v63 _ = V c main_v63 _
  congr 1
  funext a
  apply Fin.ext
  match a with
  | ⟨0, _⟩ => show win2_1.index t 0 * 4096 + 1 * (x 0).val = (k 0).val; rw [e10, hk0]; omega
  | ⟨1, _⟩ => show win2_1.index t 1 * 128 + 1 * (x 1).val = (k 1).val; rw [e11, hk1]; omega

/-- The self weights' block is the table. -/
theorem blk2_at (c : Dev nD) (t : Fin cfg2.N) (x : S128x128.Idx) :
    (iblk2 V c 2 t : Vec Ideal S128x128 .f32) x = (V c main_arg8 : S128x128.Idx → EReal) x := by
  obtain ⟨-, -, -, -, -, -, e20, e21, -⟩ := block_numbers t
  unfold iblk2
  rw [View.read_apply]
  show V c main_arg8 _ = V c main_arg8 _
  congr 1
  funext a
  apply Fin.ext
  match a with
  | ⟨0, _⟩ => show win2_2.index t 0 * 128 + 1 * (x 0).val = (x 0).val; rw [e20]; omega
  | ⟨1, _⟩ => show win2_2.index t 1 * 128 + 1 * (x 1).val = (x 1).val; rw [e21]; omega

/-- The neighbour weights' block is the table. -/
theorem blk3_at (c : Dev nD) (t : Fin cfg2.N) (x : S128x128.Idx) :
    (iblk2 V c 3 t : Vec Ideal S128x128 .f32) x = (V c main_arg9 : S128x128.Idx → EReal) x := by
  obtain ⟨-, -, -, -, -, -, -, -, e30, e31, -⟩ := block_numbers t
  unfold iblk2
  rw [View.read_apply]
  show V c main_arg9 _ = V c main_arg9 _
  congr 1
  funext a
  apply Fin.ext
  match a with
  | ⟨0, _⟩ => show win2_3.index t 0 * 128 + 1 * (x 0).val = (x 0).val; rw [e30]; omega
  | ⟨1, _⟩ => show win2_3.index t 1 * 128 + 1 * (x 1).val = (x 1).val; rw [e31]; omega

/-- The bias's block is the bias row. -/
theorem blk4_at (c : Dev nD) (t : Fin cfg2.N) (x : S1x128.Idx) :
    (iblk2 V c 4 t : Vec Ideal S1x128 .f32) x = (V c main_v64 : S1x128.Idx → EReal) x := by
  obtain ⟨-, -, -, -, -, -, -, -, -, -, e40, e41⟩ := block_numbers t
  unfold iblk2
  rw [View.read_apply]
  show V c main_v64 _ = V c main_v64 _
  congr 1
  funext a
  apply Fin.ext
  match a with
  | ⟨0, _⟩ => show win2_4.index t 0 * 1 + 1 * (x 0).val = (x 0).val; rw [e40]; omega
  | ⟨1, _⟩ => show win2_4.index t 1 * 128 + 1 * (x 1).val = (x 1).val; rw [e41]; omega

/-- WHAT POINT t WRITES BACK is block t of the layer of the whole tables. -/
theorem written_back (c : Dev nD) (t : Fin cfg2.N) :
    (dat2 V c).flushed 5 t = ((cfg2.win 5).blk t).view.read (Elt Ideal) (layer V c) := by
  obtain ⟨-, -, -, -, e50, e51, -⟩ := block_numbers t
  show (cfg2.win 5).cut (grid2.coords t) ((dat2 V c).after 5 t) = _
  rw [after2_5]
  unfold out2_5
  rw [View.canon_unit_zero hz]
  simp only [View.ld_unit_zero (S := S4096x128) hz, View.ld_unit_zero (S := S128x128) hz, View.ld_unit_zero (S := S1x128) hz]
  funext j
  show k2_pay1 (F := Ideal) (iblk2 V c 0 t) (iblk2 V c 1 t) (iblk2 V c 2 t) (iblk2 V c 3 t) (iblk2 V c 4 t) j
    = layer V c (((cfg2.win 5).blk t).view.emb j)
  rw [Cert.Sage.Pay2.pay_at]
  have hr : ((((cfg2.win 5).blk t).view.emb j) 0).val = 4096 * t.val + (j 0).val := by
    show win2_5.index t 0 * 4096 + 1 * (j 0).val = _; rw [e50]; omega
  have hc : ((((cfg2.win 5).blk t).view.emb j) 1).val = (j 1).val := by
    show win2_5.index t 1 * 128 + 1 * (j 1).val = _; rw [e51]; omega
  show _ = max (Cert.Sage.affineAt (N := 40960) (FO := 128) (V c main_v44) (V c main_v63) (V c main_arg8) (V c main_arg9) (V c main_v64)
      ⟨((((cfg2.win 5).blk t).view.emb j) 0).val, idx2_lt0 _⟩ ⟨((((cfg2.win 5).blk t).view.emb j) 1).val, idx2_lt1 _⟩) 0
  refine congrArg (max · 0) (Cert.Sage.affineAt_congr (N := 4096) (N' := 40960) (FO := 128)
    (iblk2 V c 0 t) (iblk2 V c 1 t) (iblk2 V c 2 t) (iblk2 V c 3 t) (iblk2 V c 4 t)
    (V c main_v44) (V c main_v63) (V c main_arg8) (V c main_arg9) (V c main_v64)
    ⟨(j 0).val, idx2_lt0 j⟩ ⟨((((cfg2.win 5).blk t).view.emb j) 0).val, idx2_lt0 _⟩
    ⟨(j 1).val, idx2_lt1 j⟩ ⟨((((cfg2.win 5).blk t).view.emb j) 1).val, idx2_lt1 _⟩
    (fun k => blk0_at V c t _ _ hr rfl) (fun k => blk1_at V c t _ _ hr rfl)
    (fun k => (blk2_at V c t _).trans (congrArg (V c main_arg8 : S128x128.Idx → EReal) (funext fun a => Fin.ext (by
      match a with
      | ⟨0, _⟩ => rfl
      | ⟨1, _⟩ => exact hc.symm))))
    (fun k => (blk3_at V c t _).trans (congrArg (V c main_arg9 : S128x128.Idx → EReal) (funext fun a => Fin.ext (by
      match a with
      | ⟨0, _⟩ => rfl
      | ⟨1, _⟩ => exact hc.symm))))
    ((blk4_at V c t _).trans (congrArg (V c main_v64 : S1x128.Idx → EReal) (funext fun a => Fin.ext (by
      match a with
      | ⟨0, _⟩ => rfl
      | ⟨1, _⟩ => exact hc.symm)))))

/-- An index of the result is in point t's block iff its row lies in the block's 4096 rows. -/
theorem in_block (t : Fin cfg2.N) (i : S40960x128.Idx) :
    i ∈ ((cfg2.win 5).blk t).view.set ↔ ∀ a : Fin 2, win2_5.index t a * S4096x128.size a ≤ (i a).val ∧ (i a).val < win2_5.index t a * S4096x128.size a + S4096x128.size a := by
  show i ∈ ((View.whole main_v65).slice (win2_5.rect t)).set ↔ _
  rw [View.set_slice_whole, Rect.mem_set_unit]
  exact Iff.rfl

/-- Every row of the result is in some point's block: row r in block r / 4096. -/
theorem tiled (i : S40960x128.Idx) : ∃ t : Fin cfg2.N, (cfg2.win 5).flush t = true ∧ i ∈ ((cfg2.win 5).blk t).view.set := by
  have hi0 : (i 0).val < 40960 := (i 0).isLt
  have hi1 : (i 1).val < 128 := (i 1).isLt
  have hN : cfg2.N = 10 := N_2
  have ht : (i 0).val / 4096 < cfg2.N := by rw [hN]; omega
  obtain ⟨-, -, -, -, e50, e51, -⟩ := block_numbers ⟨(i 0).val / 4096, ht⟩
  refine ⟨⟨(i 0).val / 4096, ht⟩, flush2_5 _, ?_⟩
  rw [in_block]
  intro a
  match a with
  | ⟨0, _⟩ =>
    show win2_5.index ⟨(i 0).val / 4096, ht⟩ 0 * 4096 ≤ (i 0).val ∧ (i 0).val < win2_5.index ⟨(i 0).val / 4096, ht⟩ 0 * 4096 + 4096
    rw [e50]; show (i 0).val / 4096 * 4096 ≤ (i 0).val ∧ (i 0).val < (i 0).val / 4096 * 4096 + 4096; omega
  | ⟨1, _⟩ =>
    show win2_5.index ⟨(i 0).val / 4096, ht⟩ 1 * 128 ≤ (i 1).val ∧ (i 1).val < win2_5.index ⟨(i 0).val / 4096, ht⟩ 1 * 128 + 128
    rw [e51]; omega

/-- THE RESULT ARRAY after the call: the layer of the tables as the call found them. -/
theorem result (c : Dev nD) : (dat2 V c).arrAt 5 cfg2.N = layer V c :=
  (dat2 V c).arrAt_eq_of_cover 5 (layer V c) (fun t _ => written_back V c t) tiled

end Cert.Sage.Blocks2

end
-- ==== Proof.Host2.lean ====
/-
  The host operations between call 1 and call 2, read off.

  The second pass starts from the second feature table: the program slices its first 40960 rows off, forms the mean of
  each node's neighbours in it and lays the first bias out as one row — the reference's own operations on the same
  arguments, in the same order. The result of call 1, which is one of the program's results, is not touched.
-/
import proofs.«106127_j85255100826267_1_alg».proof.Proof.Gen.KernelIdeal.Launch
import proofs.«106127_j85255100826267_1_alg».proof.Proof.Gen.ReferenceIdeal.Read
import Idealize.ShloMosaic.Lib.StableHlo.Run
import Idealize.ShloMosaic.Lib.ValueLayout

set_option maxRecDepth 8192

noncomputable section

namespace Cert.Sage.Host2

open Idealize.ShloMosaic Idealize.ShloMosaic.TcCoe Idealize.ShloMosaic.ValueIdx Idealize.ShloMosaic.StableHlo
open Cert.KernelIdeal Cert.KernelIdeal.Gen

variable {F : FTy → Type} [FloatOps F]
variable (W : Valuation τ sig (Elt F))

/-- The call's own-features operand is the reference's slice of the second feature table. -/
theorem own : StableHlo.after (hostOps2 (F := F)) W (Proc.devRef .tc main_v44) = Cert.ReferenceIdeal.Read.val_main_v54 (F := F) (W (Proc.devRef .tc main_arg1)) := by
  after_results_simp
  rfl

/-- The call's neighbour operand is the reference's mean of the neighbours. -/
theorem mean : StableHlo.after (hostOps2 (F := F)) W (Proc.devRef .tc main_v63) = Cert.ReferenceIdeal.Read.val_main_v73 (F := F) (W (Proc.devRef .tc main_arg1)) (W (Proc.devRef .tc main_arg4)) (W (Proc.devRef .tc main_arg5)) := by
  after_results_simp
  rfl

/-- The call's bias operand is the first bias vector laid out as one row. -/
theorem bias_row (j : Fin 128) :
    StableHlo.after (hostOps2 (F := F)) W (Proc.devRef .tc main_v64) (ix2 (n0 := 1) (n1 := 128) (0 : Fin 1) j) = W (Proc.devRef .tc main_arg10) (ix1 j) := by
  after_results_simp
  exact shapeCast_a_1a_apply (a := 128) _ _ (0 : Fin 1) j

theorem keeps_main_arg8 : StableHlo.after (hostOps2 (F := F)) W (Proc.devRef .tc main_arg8) = W (Proc.devRef .tc main_arg8) := by
  after_results_simp
theorem keeps_main_arg9 : StableHlo.after (hostOps2 (F := F)) W (Proc.devRef .tc main_arg9) = W (Proc.devRef .tc main_arg9) := by
  after_results_simp
theorem keeps_main_arg6 : StableHlo.after (hostOps2 (F := F)) W (Proc.devRef .tc main_arg6) = W (Proc.devRef .tc main_arg6) := by
  after_results_simp
theorem keeps_main_arg7 : StableHlo.after (hostOps2 (F := F)) W (Proc.devRef .tc main_arg7) = W (Proc.devRef .tc main_arg7) := by
  after_results_simp
theorem keeps_main_arg11 : StableHlo.after (hostOps2 (F := F)) W (Proc.devRef .tc main_arg11) = W (Proc.devRef .tc main_arg11) := by
  after_results_simp
theorem keeps_main_arg12 : StableHlo.after (hostOps2 (F := F)) W (Proc.devRef .tc main_arg12) = W (Proc.devRef .tc main_arg12) := by
  after_results_simp
theorem keeps_main_arg13 : StableHlo.after (hostOps2 (F := F)) W (Proc.devRef .tc main_arg13) = W (Proc.devRef .tc main_arg13) := by
  after_results_simp
theorem keeps_main_v43 : StableHlo.after (hostOps2 (F := F)) W (Proc.devRef .tc main_v43) = W (Proc.devRef .tc main_v43) := by
  after_results_simp

end Cert.Sage.Host2

end
-- ==== Proof.RefLayer2.lean ====
/-
  The reference's layer 2, index by index.

  The reference computes a layer with two whole matrix products, their sum, the bias spread over the rows, and two clamps at zero.
  Read at a position (r, j) on the extended reals each product is the sum over the 128 input features of the row's entries
  times the column's, the bias is the bias at column j, and clamping twice is clamping once: the value is the layer's
  index-by-index function of the same tables. The bias may be handed over as a one-row table that agrees with the bias
  vector entry by entry.
-/
import proofs.«106127_j85255100826267_1_alg».proof.Proof.Gen.ReferenceIdeal.Read
import proofs.«106127_j85255100826267_1_alg».proof.Proof.Dense

noncomputable section

namespace Cert.Sage.Ref2

open Idealize.ShloMosaic Idealize.ShloMosaic.ValueIdx Cert.ReferenceIdeal Cert.ReferenceIdeal.Read

theorem lidx_l (i : S40960x128.Idx) (k : Fin 128) :
    lidx_main_v74 i k = ix2 (n0 := 40960) (n1 := 128) ⟨(i 0).val, idx2_lt0 i⟩ k :=
  funext fun a => Fin.ext (by match a with | ⟨0, _⟩ => rfl | ⟨1, _⟩ => rfl)
theorem ridx_l (i : S40960x128.Idx) (k : Fin 128) :
    ridx_main_v74 i k = ix2 (n0 := 128) (n1 := 128) k ⟨(i 1).val, idx2_lt1 i⟩ :=
  funext fun a => Fin.ext (by match a with | ⟨0, _⟩ => rfl | ⟨1, _⟩ => rfl)
theorem lidx_r (i : S40960x128.Idx) (k : Fin 128) :
    lidx_main_v75 i k = ix2 (n0 := 40960) (n1 := 128) ⟨(i 0).val, idx2_lt0 i⟩ k :=
  funext fun a => Fin.ext (by match a with | ⟨0, _⟩ => rfl | ⟨1, _⟩ => rfl)
theorem ridx_r (i : S40960x128.Idx) (k : Fin 128) :
    ridx_main_v75 i k = ix2 (n0 := 128) (n1 := 128) k ⟨(i 1).val, idx2_lt1 i⟩ :=
  funext fun a => Fin.ext (by match a with | ⟨0, _⟩ => rfl | ⟨1, _⟩ => rfl)
theorem idx_bias (i : S40960x128.Idx) :
    idx_main_v77 (idx_main_v78 i) = ix1 (n := 128) ⟨(i 1).val, idx2_lt1 i⟩ :=
  funext fun a => Fin.ext (by match a with | ⟨0, _⟩ => rfl)

/-- THE REFERENCE'S LAYER is the layer's index-by-index function of its two feature tables, the weights and the bias. -/
theorem layer_eq (x1 : (⟨S204800x128, .f32⟩ : BufTy).Contents (Elt Ideal)) (x4 : (⟨S409600, .i32⟩ : BufTy).Contents (Elt Ideal)) (x5 : (⟨S409600, .i32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal))
    (brow : (⟨2, ![1, 128]⟩ : Shape).Idx → EReal) (hb : ∀ j : Fin 128, brow (ix2 (0 : Fin 1) j) = x10 (ix1 j)) :
    val_main_v81 (F := Ideal) x1 x4 x5 x8 x9 x10
      = Cert.Sage.affineRelu (N := 40960) (FO := 128) (val_main_v54 (F := Ideal) x1) (val_main_v73 (F := Ideal) x1 x4 x5) x8 x9 brow := by
  funext i
  rw [val_main_v81_apply, val_main_v80_apply, val_main_v79_apply, val_main_v76_apply, val_main_v74_apply, val_main_v75_apply, val_main_v78_apply, val_main_v77_apply, val_main_call2_v0_apply, val_main_call2_cst_apply, val_main_call3_v0_apply, val_main_call3_cst_apply]
  simp only [lidx_l, ridx_l, lidx_r, ridx_r, idx_bias, Ideal.addf_def, Ideal.maximumf_def, Ideal.ofBits_def, Ideal.ofBits_zero_f32]
  rw [Cert.Sage.max_zero_idem]
  unfold Cert.Sage.affineRelu Cert.Sage.affineAt
  rw [hb]

end Cert.Sage.Ref2

end
-- ==== Proof.Pay3.lean ====
/-
  What the body of call 3 stores, read at one position of its block.

  The body multiplies a block of 4096 rows of the nodes' own features by the self weights and the matching block of
  the neighbours' means by the neighbour weights, each product accumulated from zero, adds the two, adds the bias row to
  every row. Narrowing the operands to a shorter float format before the
  products changes nothing on the extended reals, and a sum accumulated from zero is the sum. So position (p, q) of the
  stored block is the layer's value at row p of the block, column q.
-/
import proofs.«106127_j85255100826267_1_alg».proof.Proof.Gen.KernelIdeal.Skeleton
import proofs.«106127_j85255100826267_1_alg».proof.Proof.Dense
import Idealize.ShloMosaic.Lib.Pipeline.Value
import Idealize.ShloMosaic.Lib.ValueIdx
import Idealize.ShloMosaic.PureOps.Ideal.Laws

noncomputable section

namespace Cert.Sage.Pay3

open Idealize.ShloMosaic Idealize.ShloMosaic.ValueIdx Cert.KernelIdeal Cert.KernelIdeal.Gen

/-- The left operand of the body's product at output position `j` and feature `k` is position (row of j, k). -/
theorem lhs_at (j : S4096x64.Idx) (k : Fin 128) :
    dot_S4096x128_S128x64_S4096x64_1_0_0_1_n_n.lhsIdx j ((contrEquiv1 dot_S4096x128_S128x64_S4096x64_1_0_0_1_n_n 128 rfl rfl).symm k) = ix2 (n0 := 4096) (n1 := 128) ⟨(j 0).val, idx2_lt0 j⟩ k := by
  have hk := contrEquiv1_symm_val dot_S4096x128_S128x64_S4096x64_1_0_0_1_n_n 128 rfl rfl k
  funext a
  apply Fin.ext
  match a with
  | ⟨0, _⟩ =>
    show (dot_S4096x128_S128x64_S4096x64_1_0_0_1_n_n.lhsIdx j _ 0).val = (j 0).val
    unfold DotDims.lhsIdx
    rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
    rfl
  | ⟨1, _⟩ => exact (dot_S4096x128_S128x64_S4096x64_1_0_0_1_n_n.lhsIdx_val_of_single rfl j _).trans hk

/-- The right operand at output position `j` and feature `k` is position (k, column of j). -/
theorem rhs_at (j : S4096x64.Idx) (k : Fin 128) :
    dot_S4096x128_S128x64_S4096x64_1_0_0_1_n_n.rhsIdx j ((contrEquiv1 dot_S4096x128_S128x64_S4096x64_1_0_0_1_n_n 128 rfl rfl).symm k) = ix2 (n0 := 128) (n1 := 64) k ⟨(j 1).val, idx2_lt1 j⟩ := by
  have hk := contrEquiv1_symm_val dot_S4096x128_S128x64_S4096x64_1_0_0_1_n_n 128 rfl rfl k
  funext a
  apply Fin.ext
  match a with
  | ⟨0, _⟩ => exact (dot_S4096x128_S128x64_S4096x64_1_0_0_1_n_n.rhsIdx_val_of_single rfl j _).trans hk
  | ⟨1, _⟩ =>
    show (dot_S4096x128_S128x64_S4096x64_1_0_0_1_n_n.rhsIdx j _ 1).val = (j 1).val
    unfold DotDims.rhsIdx
    rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
    rfl

/-- A product accumulated from zero, at a position: the sum over the 128 features. -/
theorem product_at (x : FVec Ideal S4096x128 .bf16) (w : FVec Ideal S128x64 .bf16) (j : S4096x64.Idx) :
    matmul (F := Ideal) dot_S4096x128_S128x64_S4096x64_1_0_0_1_n_n none x w (constant S4096x64 .f32 0x00000000#32) j
      = ∑ k : Fin 128, x (ix2 (n0 := 4096) (n1 := 128) ⟨(j 0).val, idx2_lt0 j⟩ k) * w (ix2 (n0 := 128) (n1 := 64) k ⟨(j 1).val, idx2_lt1 j⟩) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  rw [lhs_at, rhs_at]

/-- The bias row spread over the block's rows, at a position: the bias at the position's column. -/
theorem bias_at (b : FVec Ideal S1x64 .f32) (j : S4096x64.Idx) :
    broadcastTo S4096x64 b broadcasts_S1x64_S4096x64 j = b (ix2 (n0 := 1) (n1 := 64) (0 : Fin 1) ⟨(j 1).val, idx2_lt1 j⟩) :=
  broadcastTo_apply b broadcasts_S1x64_S4096x64 j _ (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- THE STORED BLOCK at position `j`: the layer's value there. -/
theorem pay_at (x0 x1 : Vec Ideal S4096x128 .f32) (x2 x3 : Vec Ideal S128x64 .f32) (x4 : Vec Ideal S1x64 .f32) (j : S4096x64.Idx) :
    k3_pay1 (F := Ideal) x0 x1 x2 x3 x4 j
      = Cert.Sage.affineAt (N := 4096) (FO := 64) x0 x1 x2 x3 x4 ⟨(j 0).val, idx2_lt0 j⟩ ⟨(j 1).val, idx2_lt1 j⟩ := by
  unfold k3_pay1
  simp only [shapeCast_self]
  rw [addf_apply, addf_apply, product_at, product_at, bias_at]
  rfl

end Cert.Sage.Pay3

end
-- ==== Proof.Blocks3.lean ====
/-
  Call 3: from what each grid point writes back to the whole result array.

  The call has a single grid point (t = 0): it reads all 4096 rows of the two feature tables and the whole of the two
  weight tables and of the bias row, and writes back all 4096 rows of the result. What it writes back is the layer
  applied to the whole tables, and its one block is the whole result, so after the call the result array is the layer of
  the tables as the call found them — for any contents `V` of memory at the call's entry.
-/
import proofs.«106127_j85255100826267_1_alg».proof.Proof.Gen.KernelIdeal.Frame
import proofs.«106127_j85255100826267_1_alg».proof.Proof.Pay3
import Idealize.ShloMosaic.Lib.Pipeline.Value
import Idealize.ShloMosaic.Lib.Tactic

set_option maxRecDepth 16384

noncomputable section

namespace Cert.Sage.Blocks3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the feature tables' and the result's block is number t along the
    rows; the weights' and the bias's is the one block there is. -/
theorem block_numbers : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_5.index t (0 : Fin 2) = t.val
    ∧ win3_5.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0 :=
  (by decide +kernel : ∀ t : Fin grid3.N, _)

/-- The layer of the whole tables as the call finds them. -/
abbrev layer (c : Dev nD) : S4096x64.Idx → EReal :=
  Cert.Sage.affine (N := 4096) (FO := 64) (V c main_v66) (V c main_v85) (V c main_arg11) (V c main_arg12) (V c main_v86)

/-- A position of the own-features block at point t is a position of the table, 4096·t rows down. -/
theorem blk0_at (c : Dev nD) (t : Fin cfg3.N) (x : S4096x128.Idx) (k : S4096x128.Idx)
    (hk0 : (k 0).val = 4096 * t.val + (x 0).val) (hk1 : (k 1).val = (x 1).val) :
    (iblk3 V c 0 t : Vec Ideal S4096x128 .f32) x = (V c main_v66 : S4096x128.Idx → EReal) k := by
  obtain ⟨e00, e01, -⟩ := block_numbers t
  unfold iblk3
  rw [View.read_apply]
  show V c main_v66 _ = V c main_v66 _
  congr 1
  funext a
  apply Fin.ext
  match a with
  | ⟨0, _⟩ => show win3_0.index t 0 * 4096 + 1 * (x 0).val = (k 0).val; rw [e00, hk0]; omega
  | ⟨1, _⟩ => show win3_0.index t 1 * 128 + 1 * (x 1).val = (k 1).val; rw [e01, hk1]; omega

/-- The same for the neighbour-means block. -/
theorem blk1_at (c : Dev nD) (t : Fin cfg3.N) (x : S4096x128.Idx) (k : S4096x128.Idx)
    (hk0 : (k 0).val = 4096 * t.val + (x 0).val) (hk1 : (k 1).val = (x 1).val) :
    (iblk3 V c 1 t : Vec Ideal S4096x128 .f32) x = (V c main_v85 : S4096x128.Idx → EReal) k := by
  obtain ⟨-, -, e10, e11, -⟩ := block_numbers t
  unfold iblk3
  rw [View.read_apply]
  show V c main_v85 _ = V c main_v85 _
  congr 1
  funext a
  apply Fin.ext
  match a with
  | ⟨0, _⟩ => show win3_1.index t 0 * 4096 + 1 * (x 0).val = (k 0).val; rw [e10, hk0]; omega
  | ⟨1, _⟩ => show win3_1.index t 1 * 128 + 1 * (x 1).val = (k 1).val; rw [e11, hk1]; omega

/-- The self weights' block is the table. -/
theorem blk2_at (c : Dev nD) (t : Fin cfg3.N) (x : S128x64.Idx) :
    (iblk3 V c 2 t : Vec Ideal S128x64 .f32) x = (V c main_arg11 : S128x64.Idx → EReal) x := by
  obtain ⟨-, -, -, -, -, -, e20, e21, -⟩ := block_numbers t
  unfold iblk3
  rw [View.read_apply]
  show V c main_arg11 _ = V c main_arg11 _
  congr 1
  funext a
  apply Fin.ext
  match a with
  | ⟨0, _⟩ => show win3_2.index t 0 * 128 + 1 * (x 0).val = (x 0).val; rw [e20]; omega
  | ⟨1, _⟩ => show win3_2.index t 1 * 64 + 1 * (x 1).val = (x 1).val; rw [e21]; omega

/-- The neighbour weights' block is the table. -/
theorem blk3_at (c : Dev nD) (t : Fin cfg3.N) (x : S128x64.Idx) :
    (iblk3 V c 3 t : Vec Ideal S128x64 .f32) x = (V c main_arg12 : S128x64.Idx → EReal) x := by
  obtain ⟨-, -, -, -, -, -, -, -, e30, e31, -⟩ := block_numbers t
  unfold iblk3
  rw [View.read_apply]
  show V c main_arg12 _ = V c main_arg12 _
  congr 1
  funext a
  apply Fin.ext
  match a with
  | ⟨0, _⟩ => show win3_3.index t 0 * 128 + 1 * (x 0).val = (x 0).val; rw [e30]; omega
  | ⟨1, _⟩ => show win3_3.index t 1 * 64 + 1 * (x 1).val = (x 1).val; rw [e31]; omega

/-- The bias's block is the bias row. -/
theorem blk4_at (c : Dev nD) (t : Fin cfg3.N) (x : S1x64.Idx) :
    (iblk3 V c 4 t : Vec Ideal S1x64 .f32) x = (V c main_v86 : S1x64.Idx → EReal) x := by
  obtain ⟨-, -, -, -, -, -, -, -, -, -, e40, e41⟩ := block_numbers t
  unfold iblk3
  rw [View.read_apply]
  show V c main_v86 _ = V c main_v86 _
  congr 1
  funext a
  apply Fin.ext
  match a with
  | ⟨0, _⟩ => show win3_4.index t 0 * 1 + 1 * (x 0).val = (x 0).val; rw [e40]; omega
  | ⟨1, _⟩ => show win3_4.index t 1 * 64 + 1 * (x 1).val = (x 1).val; rw [e41]; omega

/-- WHAT POINT t WRITES BACK is block t of the layer of the whole tables. -/
theorem written_back (c : Dev nD) (t : Fin cfg3.N) :
    (dat3 V c).flushed 5 t = ((cfg3.win 5).blk t).view.read (Elt Ideal) (layer V c) := by
  obtain ⟨-, -, -, -, e50, e51, -⟩ := block_numbers t
  show (cfg3.win 5).cut (grid3.coords t) ((dat3 V c).after 5 t) = _
  rw [after3_5]
  unfold out3_5
  rw [View.canon_unit_zero hz]
  simp only [View.ld_unit_zero (S := S4096x128) hz, View.ld_unit_zero (S := S128x64) hz, View.ld_unit_zero (S := S1x64) hz]
  funext j
  show k3_pay1 (F := Ideal) (iblk3 V c 0 t) (iblk3 V c 1 t) (iblk3 V c 2 t) (iblk3 V c 3 t) (iblk3 V c 4 t) j
    = layer V c (((cfg3.win 5).blk t).view.emb j)
  rw [Cert.Sage.Pay3.pay_at]
  have hr : ((((cfg3.win 5).blk t).view.emb j) 0).val = 4096 * t.val + (j 0).val := by
    show win3_5.index t 0 * 4096 + 1 * (j 0).val = _; rw [e50]; omega
  have hc : ((((cfg3.win 5).blk t).view.emb j) 1).val = (j 1).val := by
    show win3_5.index t 1 * 64 + 1 * (j 1).val = _; rw [e51]; omega
  show _ = Cert.Sage.affineAt (N := 4096) (FO := 64) (V c main_v66) (V c main_v85) (V c main_arg11) (V c main_arg12) (V c main_v86)
      ⟨((((cfg3.win 5).blk t).view.emb j) 0).val, idx2_lt0 _⟩ ⟨((((cfg3.win 5).blk t).view.emb j) 1).val, idx2_lt1 _⟩
  refine (Cert.Sage.affineAt_congr (N := 4096) (N' := 4096) (FO := 64)
    (iblk3 V c 0 t) (iblk3 V c 1 t) (iblk3 V c 2 t) (iblk3 V c 3 t) (iblk3 V c 4 t)
    (V c main_v66) (V c main_v85) (V c main_arg11) (V c main_arg12) (V c main_v86)
    ⟨(j 0).val, idx2_lt0 j⟩ ⟨((((cfg3.win 5).blk t).view.emb j) 0).val, idx2_lt0 _⟩
    ⟨(j 1).val, idx2_lt1 j⟩ ⟨((((cfg3.win 5).blk t).view.emb j) 1).val, idx2_lt1 _⟩
    (fun k => blk0_at V c t _ _ hr rfl) (fun k => blk1_at V c t _ _ hr rfl)
    (fun k => (blk2_at V c t _).trans (congrArg (V c main_arg11 : S128x64.Idx → EReal) (funext fun a => Fin.ext (by
      match a with
      | ⟨0, _⟩ => rfl
      | ⟨1, _⟩ => exact hc.symm))))
    (fun k => (blk3_at V c t _).trans (congrArg (V c main_arg12 : S128x64.Idx → EReal) (funext fun a => Fin.ext (by
      match a with
      | ⟨0, _⟩ => rfl
      | ⟨1, _⟩ => exact hc.symm))))
    ((blk4_at V c t _).trans (congrArg (V c main_v86 : S1x64.Idx → EReal) (funext fun a => Fin.ext (by
      match a with
      | ⟨0, _⟩ => rfl
      | ⟨1, _⟩ => exact hc.symm)))))

/-- An index of the result is in point t's block iff its row lies in the block's 4096 rows. -/
theorem in_block (t : Fin cfg3.N) (i : S4096x64.Idx) :
    i ∈ ((cfg3.win 5).blk t).view.set ↔ ∀ a : Fin 2, win3_5.index t a * S4096x64.size a ≤ (i a).val ∧ (i a).val < win3_5.index t a * S4096x64.size a + S4096x64.size a := by
  show i ∈ ((View.whole main_v87).slice (win3_5.rect t)).set ↔ _
  rw [View.set_slice_whole, Rect.mem_set_unit]
  exact Iff.rfl

/-- Every row of the result is in some point's block: row r in block r / 4096. -/
theorem tiled (i : S4096x64.Idx) : ∃ t : Fin cfg3.N, (cfg3.win 5).flush t = true ∧ i ∈ ((cfg3.win 5).blk t).view.set := by
  have hi0 : (i 0).val < 4096 := (i 0).isLt
  have hi1 : (i 1).val < 64 := (i 1).isLt
  have hN : cfg3.N = 1 := N_3
  have ht : (i 0).val / 4096 < cfg3.N := by rw [hN]; omega
  obtain ⟨-, -, -, -, e50, e51, -⟩ := block_numbers ⟨(i 0).val / 4096, ht⟩
  refine ⟨⟨(i 0).val / 4096, ht⟩, flush3_5 _, ?_⟩
  rw [in_block]
  intro a
  match a with
  | ⟨0, _⟩ =>
    show win3_5.index ⟨(i 0).val / 4096, ht⟩ 0 * 4096 ≤ (i 0).val ∧ (i 0).val < win3_5.index ⟨(i 0).val / 4096, ht⟩ 0 * 4096 + 4096
    rw [e50]; show (i 0).val / 4096 * 4096 ≤ (i 0).val ∧ (i 0).val < (i 0).val / 4096 * 4096 + 4096; omega
  | ⟨1, _⟩ =>
    show win3_5.index ⟨(i 0).val / 4096, ht⟩ 1 * 64 ≤ (i 1).val ∧ (i 1).val < win3_5.index ⟨(i 0).val / 4096, ht⟩ 1 * 64 + 64
    rw [e51]; omega

/-- THE RESULT ARRAY after the call: the layer of the tables as the call found them. -/
theorem result (c : Dev nD) : (dat3 V c).arrAt 5 cfg3.N = layer V c :=
  (dat3 V c).arrAt_eq_of_cover 5 (layer V c) (fun t _ => written_back V c t) tiled

end Cert.Sage.Blocks3

end
-- ==== Proof.Host3.lean ====
/-
  The host operations between call 2 and call 3, read off.

  Before the last call the program slices the first 4096 rows off the hidden table that call 2 produced, forms the mean
  of each node's neighbours in that table and lays the second bias out as one row. If the hidden table holds the
  reference's hidden table of the second pass, each buffer call 3 reads holds the reference's value of that stage. The
  result of call 1 is not touched.
-/
import proofs.«106127_j85255100826267_1_alg».proof.Proof.Gen.KernelIdeal.Launch
import proofs.«106127_j85255100826267_1_alg».proof.Proof.Gen.ReferenceIdeal.Read
import Idealize.ShloMosaic.Lib.StableHlo.Run
import Idealize.ShloMosaic.Lib.ValueLayout

set_option maxRecDepth 8192

noncomputable section

namespace Cert.Sage.Host3

open Idealize.ShloMosaic Idealize.ShloMosaic.TcCoe Idealize.ShloMosaic.ValueIdx Idealize.ShloMosaic.StableHlo
open Cert.KernelIdeal Cert.KernelIdeal.Gen

variable {F : FTy → Type} [FloatOps F]
variable (W : Valuation τ sig (Elt F))

variable (x1 : (⟨Cert.ReferenceIdeal.S204800x128, .f32⟩ : BufTy).Contents (Elt F)) (x4 : (⟨Cert.ReferenceIdeal.S409600, .i32⟩ : BufTy).Contents (Elt F)) (x5 : (⟨Cert.ReferenceIdeal.S409600, .i32⟩ : BufTy).Contents (Elt F)) (x8 : (⟨Cert.ReferenceIdeal.S128x128, .f32⟩ : BufTy).Contents (Elt F)) (x9 : (⟨Cert.ReferenceIdeal.S128x128, .f32⟩ : BufTy).Contents (Elt F)) (x10 : (⟨Cert.ReferenceIdeal.S128, .f32⟩ : BufTy).Contents (Elt F))

/-- The call's own-features operand is the reference's slice of the hidden table. -/
theorem own (h65 : W (Proc.devRef .tc main_v65) = Cert.ReferenceIdeal.Read.val_main_v81 (F := F) x1 x4 x5 x8 x9 x10) :
    StableHlo.after (hostOps3 (F := F)) W (Proc.devRef .tc main_v66) = Cert.ReferenceIdeal.Read.val_main_v82 (F := F) x1 x4 x5 x8 x9 x10 := by
  after_results_simp
  rw [h65]
  rfl

/-- The call's neighbour operand is the reference's mean of the neighbours in the hidden table. -/
theorem mean (h65 : W (Proc.devRef .tc main_v65) = Cert.ReferenceIdeal.Read.val_main_v81 (F := F) x1 x4 x5 x8 x9 x10) :
    StableHlo.after (hostOps3 (F := F)) W (Proc.devRef .tc main_v85) = Cert.ReferenceIdeal.Read.val_main_v101 (F := F) x1 x4 x5 (W (Proc.devRef .tc main_arg6)) (W (Proc.devRef .tc main_arg7)) x8 x9 x10 := by
  after_results_simp
  rw [h65]
  rfl

/-- The call's bias operand is the second bias vector laid out as one row. -/
theorem bias_row (j : Fin 64) :
    StableHlo.after (hostOps3 (F := F)) W (Proc.devRef .tc main_v86) (ix2 (n0 := 1) (n1 := 64) (0 : Fin 1) j) = W (Proc.devRef .tc main_arg13) (ix1 j) := by
  after_results_simp
  exact shapeCast_a_1a_apply (a := 64) _ _ (0 : Fin 1) j

theorem keeps_main_arg11 : StableHlo.after (hostOps3 (F := F)) W (Proc.devRef .tc main_arg11) = W (Proc.devRef .tc main_arg11) := by
  after_results_simp
theorem keeps_main_arg12 : StableHlo.after (hostOps3 (F := F)) W (Proc.devRef .tc main_arg12) = W (Proc.devRef .tc main_arg12) := by
  after_results_simp
theorem keeps_main_v43 : StableHlo.after (hostOps3 (F := F)) W (Proc.devRef .tc main_v43) = W (Proc.devRef .tc main_v43) := by
  after_results_simp

end Cert.Sage.Host3

end
-- ==== Proof.RefLayer3.lean ====
/-
  The reference's layer 3, index by index.

  The reference computes a layer with two whole matrix products, their sum, the bias spread over the rows.
  Read at a position (r, j) on the extended reals each product is the sum over the 128 input features of the row's entries
  times the column's, the bias is the bias at column j: the value is the layer's
  index-by-index function of the same tables. The bias may be handed over as a one-row table that agrees with the bias
  vector entry by entry.
-/
import proofs.«106127_j85255100826267_1_alg».proof.Proof.Gen.ReferenceIdeal.Read
import proofs.«106127_j85255100826267_1_alg».proof.Proof.Dense

noncomputable section

namespace Cert.Sage.Ref3

open Idealize.ShloMosaic Idealize.ShloMosaic.ValueIdx Cert.ReferenceIdeal Cert.ReferenceIdeal.Read

theorem lidx_l (i : S4096x64.Idx) (k : Fin 128) :
    lidx_main_v102 i k = ix2 (n0 := 4096) (n1 := 128) ⟨(i 0).val, idx2_lt0 i⟩ k :=
  funext fun a => Fin.ext (by match a with | ⟨0, _⟩ => rfl | ⟨1, _⟩ => rfl)
theorem ridx_l (i : S4096x64.Idx) (k : Fin 128) :
    ridx_main_v102 i k = ix2 (n0 := 128) (n1 := 64) k ⟨(i 1).val, idx2_lt1 i⟩ :=
  funext fun a => Fin.ext (by match a with | ⟨0, _⟩ => rfl | ⟨1, _⟩ => rfl)
theorem lidx_r (i : S4096x64.Idx) (k : Fin 128) :
    lidx_main_v103 i k = ix2 (n0 := 4096) (n1 := 128) ⟨(i 0).val, idx2_lt0 i⟩ k :=
  funext fun a => Fin.ext (by match a with | ⟨0, _⟩ => rfl | ⟨1, _⟩ => rfl)
theorem ridx_r (i : S4096x64.Idx) (k : Fin 128) :
    ridx_main_v103 i k = ix2 (n0 := 128) (n1 := 64) k ⟨(i 1).val, idx2_lt1 i⟩ :=
  funext fun a => Fin.ext (by match a with | ⟨0, _⟩ => rfl | ⟨1, _⟩ => rfl)
theorem idx_bias (i : S4096x64.Idx) :
    idx_main_v105 (idx_main_v106 i) = ix1 (n := 64) ⟨(i 1).val, idx2_lt1 i⟩ :=
  funext fun a => Fin.ext (by match a with | ⟨0, _⟩ => rfl)

/-- THE REFERENCE'S LAYER is the layer's index-by-index function of its two feature tables, the weights and the bias. -/
theorem layer_eq (x1 : (⟨S204800x128, .f32⟩ : BufTy).Contents (Elt Ideal)) (x4 : (⟨S409600, .i32⟩ : BufTy).Contents (Elt Ideal)) (x5 : (⟨S409600, .i32⟩ : BufTy).Contents (Elt Ideal)) (x6 : (⟨S40960, .i32⟩ : BufTy).Contents (Elt Ideal)) (x7 : (⟨S40960, .i32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S128x64, .f32⟩ : BufTy).Contents (Elt Ideal)) (x13 : (⟨S64, .f32⟩ : BufTy).Contents (Elt Ideal))
    (brow : (⟨2, ![1, 64]⟩ : Shape).Idx → EReal) (hb : ∀ j : Fin 64, brow (ix2 (0 : Fin 1) j) = x13 (ix1 j)) :
    val_main_v107 (F := Ideal) x1 x4 x5 x6 x7 x8 x9 x10 x11 x12 x13
      = Cert.Sage.affine (N := 4096) (FO := 64) (val_main_v82 (F := Ideal) x1 x4 x5 x8 x9 x10) (val_main_v101 (F := Ideal) x1 x4 x5 x6 x7 x8 x9 x10) x11 x12 brow := by
  funext i
  rw [val_main_v107_apply, val_main_v104_apply, val_main_v102_apply, val_main_v103_apply, val_main_v106_apply, val_main_v105_apply]
  simp only [lidx_l, ridx_l, lidx_r, ridx_r, idx_bias, Ideal.addf_def, Ideal.maximumf_def, Ideal.ofBits_def, Ideal.ofBits_zero_f32]
  unfold Cert.Sage.affine Cert.Sage.affineAt
  rw [hb]

end Cert.Sage.Ref3

end
-- ==== Proof.Values.lean ====
/-
  The four calls chained: what the kernel program leaves in its two result buffers.

  Call 0's operands are the reference's slice of the first feature table, the reference's mean of the neighbours, the
  weights and the bias row; its result is the hidden layer of those, which is the reference's hidden table. Call 1 reads
  the slice and the neighbour means of that table, so its result is the reference's first result. Calls 2 and 3 do the
  same from the second feature table and give the reference's second result. Between the calls no host operation and no
  later call writes an argument or the first result, so each is read where it was left.
-/
import proofs.«106127_j85255100826267_1_alg».proof.Proof.Gen.KernelIdeal.Frame
import proofs.«106127_j85255100826267_1_alg».proof.Proof.Blocks0
import proofs.«106127_j85255100826267_1_alg».proof.Proof.Host0
import proofs.«106127_j85255100826267_1_alg».proof.Proof.RefLayer0
import proofs.«106127_j85255100826267_1_alg».proof.Proof.Blocks1
import proofs.«106127_j85255100826267_1_alg».proof.Proof.Host1
import proofs.«106127_j85255100826267_1_alg».proof.Proof.RefLayer1
import proofs.«106127_j85255100826267_1_alg».proof.Proof.Blocks2
import proofs.«106127_j85255100826267_1_alg».proof.Proof.Host2
import proofs.«106127_j85255100826267_1_alg».proof.Proof.RefLayer2
import proofs.«106127_j85255100826267_1_alg».proof.Proof.Blocks3
import proofs.«106127_j85255100826267_1_alg».proof.Proof.Host3
import proofs.«106127_j85255100826267_1_alg».proof.Proof.RefLayer3

set_option maxRecDepth 16384

noncomputable section

namespace Cert.Sage.Values

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The arguments, read at each call's entry: no host operation and no call writes one -/

theorem W2_arg4 (c : Dev nD) : W2 m ρ c (Proc.devRef .tc main_arg4) = m ((c : Thread nD τ).loc main_arg4) :=
  (W2_of_ne m ρ c main_arg4 (by decide)).trans (Cert.Sage.Host0.keeps_main_arg4 (W0 m ρ c))
theorem W2_arg5 (c : Dev nD) : W2 m ρ c (Proc.devRef .tc main_arg5) = m ((c : Thread nD τ).loc main_arg5) :=
  (W2_of_ne m ρ c main_arg5 (by decide)).trans (Cert.Sage.Host0.keeps_main_arg5 (W0 m ρ c))
theorem W2_arg11 (c : Dev nD) : W2 m ρ c (Proc.devRef .tc main_arg11) = m ((c : Thread nD τ).loc main_arg11) :=
  (W2_of_ne m ρ c main_arg11 (by decide)).trans (Cert.Sage.Host0.keeps_main_arg11 (W0 m ρ c))
theorem W2_arg12 (c : Dev nD) : W2 m ρ c (Proc.devRef .tc main_arg12) = m ((c : Thread nD τ).loc main_arg12) :=
  (W2_of_ne m ρ c main_arg12 (by decide)).trans (Cert.Sage.Host0.keeps_main_arg12 (W0 m ρ c))
theorem W2_arg13 (c : Dev nD) : W2 m ρ c (Proc.devRef .tc main_arg13) = m ((c : Thread nD τ).loc main_arg13) :=
  (W2_of_ne m ρ c main_arg13 (by decide)).trans (Cert.Sage.Host0.keeps_main_arg13 (W0 m ρ c))
theorem W2_arg1 (c : Dev nD) : W2 m ρ c (Proc.devRef .tc main_arg1) = m ((c : Thread nD τ).loc main_arg1) :=
  (W2_of_ne m ρ c main_arg1 (by decide)).trans (Cert.Sage.Host0.keeps_main_arg1 (W0 m ρ c))
theorem W2_arg10 (c : Dev nD) : W2 m ρ c (Proc.devRef .tc main_arg10) = m ((c : Thread nD τ).loc main_arg10) :=
  (W2_of_ne m ρ c main_arg10 (by decide)).trans (Cert.Sage.Host0.keeps_main_arg10 (W0 m ρ c))
theorem W2_arg8 (c : Dev nD) : W2 m ρ c (Proc.devRef .tc main_arg8) = m ((c : Thread nD τ).loc main_arg8) :=
  ((W2_arr m ρ c 2).trans (((dat0 (V1 m ρ) c).arrAt_in 2 rfl _).trans (A_eq0 (V1 m ρ) c 2))).trans (Cert.Sage.Host0.keeps_main_arg8 (W0 m ρ c))
theorem W2_arg9 (c : Dev nD) : W2 m ρ c (Proc.devRef .tc main_arg9) = m ((c : Thread nD τ).loc main_arg9) :=
  ((W2_arr m ρ c 3).trans (((dat0 (V1 m ρ) c).arrAt_in 3 rfl _).trans (A_eq0 (V1 m ρ) c 3))).trans (Cert.Sage.Host0.keeps_main_arg9 (W0 m ρ c))
theorem W2_arg6 (c : Dev nD) : W2 m ρ c (Proc.devRef .tc main_arg6) = m ((c : Thread nD τ).loc main_arg6) :=
  (W2_of_ne m ρ c main_arg6 (by decide)).trans (Cert.Sage.Host0.keeps_main_arg6 (W0 m ρ c))
theorem W2_arg7 (c : Dev nD) : W2 m ρ c (Proc.devRef .tc main_arg7) = m ((c : Thread nD τ).loc main_arg7) :=
  (W2_of_ne m ρ c main_arg7 (by decide)).trans (Cert.Sage.Host0.keeps_main_arg7 (W0 m ρ c))

theorem W4_arg1 (c : Dev nD) : W4 m ρ c (Proc.devRef .tc main_arg1) = m ((c : Thread nD τ).loc main_arg1) :=
  (W4_of_ne m ρ c main_arg1 (by decide)).trans ((Cert.Sage.Host1.keeps_main_arg1 (W2 m ρ c)).trans (W2_arg1 m ρ c))
theorem W4_arg4 (c : Dev nD) : W4 m ρ c (Proc.devRef .tc main_arg4) = m ((c : Thread nD τ).loc main_arg4) :=
  (W4_of_ne m ρ c main_arg4 (by decide)).trans ((Cert.Sage.Host1.keeps_main_arg4 (W2 m ρ c)).trans (W2_arg4 m ρ c))
theorem W4_arg5 (c : Dev nD) : W4 m ρ c (Proc.devRef .tc main_arg5) = m ((c : Thread nD τ).loc main_arg5) :=
  (W4_of_ne m ρ c main_arg5 (by decide)).trans ((Cert.Sage.Host1.keeps_main_arg5 (W2 m ρ c)).trans (W2_arg5 m ρ c))
theorem W4_arg8 (c : Dev nD) : W4 m ρ c (Proc.devRef .tc main_arg8) = m ((c : Thread nD τ).loc main_arg8) :=
  (W4_of_ne m ρ c main_arg8 (by decide)).trans ((Cert.Sage.Host1.keeps_main_arg8 (W2 m ρ c)).trans (W2_arg8 m ρ c))
theorem W4_arg9 (c : Dev nD) : W4 m ρ c (Proc.devRef .tc main_arg9) = m ((c : Thread nD τ).loc main_arg9) :=
  (W4_of_ne m ρ c main_arg9 (by decide)).trans ((Cert.Sage.Host1.keeps_main_arg9 (W2 m ρ c)).trans (W2_arg9 m ρ c))
theorem W4_arg10 (c : Dev nD) : W4 m ρ c (Proc.devRef .tc main_arg10) = m ((c : Thread nD τ).loc main_arg10) :=
  (W4_of_ne m ρ c main_arg10 (by decide)).trans ((Cert.Sage.Host1.keeps_main_arg10 (W2 m ρ c)).trans (W2_arg10 m ρ c))
theorem W4_arg6 (c : Dev nD) : W4 m ρ c (Proc.devRef .tc main_arg6) = m ((c : Thread nD τ).loc main_arg6) :=
  (W4_of_ne m ρ c main_arg6 (by decide)).trans ((Cert.Sage.Host1.keeps_main_arg6 (W2 m ρ c)).trans (W2_arg6 m ρ c))
theorem W4_arg7 (c : Dev nD) : W4 m ρ c (Proc.devRef .tc main_arg7) = m ((c : Thread nD τ).loc main_arg7) :=
  (W4_of_ne m ρ c main_arg7 (by decide)).trans ((Cert.Sage.Host1.keeps_main_arg7 (W2 m ρ c)).trans (W2_arg7 m ρ c))
theorem W4_arg11 (c : Dev nD) : W4 m ρ c (Proc.devRef .tc main_arg11) = m ((c : Thread nD τ).loc main_arg11) :=
  ((W4_arr m ρ c 2).trans (((dat1 (V3 m ρ) c).arrAt_in 2 rfl _).trans (A_eq1 (V3 m ρ) c 2))).trans ((Cert.Sage.Host1.keeps_main_arg11 (W2 m ρ c)).trans (W2_arg11 m ρ c))
theorem W4_arg12 (c : Dev nD) : W4 m ρ c (Proc.devRef .tc main_arg12) = m ((c : Thread nD τ).loc main_arg12) :=
  ((W4_arr m ρ c 3).trans (((dat1 (V3 m ρ) c).arrAt_in 3 rfl _).trans (A_eq1 (V3 m ρ) c 3))).trans ((Cert.Sage.Host1.keeps_main_arg12 (W2 m ρ c)).trans (W2_arg12 m ρ c))
theorem W4_arg13 (c : Dev nD) : W4 m ρ c (Proc.devRef .tc main_arg13) = m ((c : Thread nD τ).loc main_arg13) :=
  (W4_of_ne m ρ c main_arg13 (by decide)).trans ((Cert.Sage.Host1.keeps_main_arg13 (W2 m ρ c)).trans (W2_arg13 m ρ c))

theorem W6_arg6 (c : Dev nD) : W6 m ρ c (Proc.devRef .tc main_arg6) = m ((c : Thread nD τ).loc main_arg6) :=
  (W6_of_ne m ρ c main_arg6 (by decide)).trans ((Cert.Sage.Host2.keeps_main_arg6 (W4 m ρ c)).trans (W4_arg6 m ρ c))
theorem W6_arg7 (c : Dev nD) : W6 m ρ c (Proc.devRef .tc main_arg7) = m ((c : Thread nD τ).loc main_arg7) :=
  (W6_of_ne m ρ c main_arg7 (by decide)).trans ((Cert.Sage.Host2.keeps_main_arg7 (W4 m ρ c)).trans (W4_arg7 m ρ c))
theorem W6_arg11 (c : Dev nD) : W6 m ρ c (Proc.devRef .tc main_arg11) = m ((c : Thread nD τ).loc main_arg11) :=
  (W6_of_ne m ρ c main_arg11 (by decide)).trans ((Cert.Sage.Host2.keeps_main_arg11 (W4 m ρ c)).trans (W4_arg11 m ρ c))
theorem W6_arg12 (c : Dev nD) : W6 m ρ c (Proc.devRef .tc main_arg12) = m ((c : Thread nD τ).loc main_arg12) :=
  (W6_of_ne m ρ c main_arg12 (by decide)).trans ((Cert.Sage.Host2.keeps_main_arg12 (W4 m ρ c)).trans (W4_arg12 m ρ c))
theorem W6_arg13 (c : Dev nD) : W6 m ρ c (Proc.devRef .tc main_arg13) = m ((c : Thread nD τ).loc main_arg13) :=
  (W6_of_ne m ρ c main_arg13 (by decide)).trans ((Cert.Sage.Host2.keeps_main_arg13 (W4 m ρ c)).trans (W4_arg13 m ρ c))

/-! ## Call 0: the hidden table of the first pass -/

theorem hidden_a (c : Dev nD) :
    W2 m ρ c (Proc.devRef .tc main_v21) = Cert.ReferenceIdeal.Read.val_main_v27 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) := by
  refine ((W2_arr m ρ c 5).trans (Cert.Sage.Blocks0.result (V1 m ρ) c)).trans ?_
  have e0 : V1 m ρ c main_v0 = Cert.ReferenceIdeal.Read.val_main_v0 (F := Ideal) (m ((c : Thread nD τ).loc main_arg0)) := Cert.Sage.Host0.own (W0 m ρ c)
  have e1 : V1 m ρ c main_v19 = Cert.ReferenceIdeal.Read.val_main_v19 (F := Ideal) (m ((c : Thread nD τ).loc main_arg0)) (m ((c : Thread nD τ).loc main_arg2)) (m ((c : Thread nD τ).loc main_arg3)) := Cert.Sage.Host0.mean (W0 m ρ c)
  have e2 : V1 m ρ c main_arg8 = (m ((c : Thread nD τ).loc main_arg8)) := Cert.Sage.Host0.keeps_main_arg8 (W0 m ρ c)
  have e3 : V1 m ρ c main_arg9 = (m ((c : Thread nD τ).loc main_arg9)) := Cert.Sage.Host0.keeps_main_arg9 (W0 m ρ c)
  show Cert.Sage.affineRelu (N := 204800) (FO := 128) (V1 m ρ c main_v0) (V1 m ρ c main_v19) (V1 m ρ c main_arg8) (V1 m ρ c main_arg9) (V1 m ρ c main_v20) = _
  rw [e0, e1, e2, e3]
  exact (Cert.Sage.Ref0.layer_eq (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (V1 m ρ c main_v20)
    (fun j => Cert.Sage.Host0.bias_row (W0 m ρ c) j)).symm

/-! ## Call 1: the first result -/

theorem result_a_at4 (c : Dev nD) :
    W4 m ρ c (Proc.devRef .tc main_v43) = Cert.ReferenceIdeal.Read.val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W4_arr m ρ c 5).trans (Cert.Sage.Blocks1.result (V3 m ρ) c)).trans ?_
  have e0 : V3 m ρ c main_v22 = Cert.ReferenceIdeal.Read.val_main_v28 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) :=
    Cert.Sage.Host1.own (W2 m ρ c) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (hidden_a m ρ c)
  have e1 : V3 m ρ c main_v41 = Cert.ReferenceIdeal.Read.val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) := by
    have h := Cert.Sage.Host1.mean (W2 m ρ c) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (hidden_a m ρ c)
    rw [W2_arg4 m ρ c, W2_arg5 m ρ c] at h
    exact h
  have e2 : V3 m ρ c main_arg11 = (m ((c : Thread nD τ).loc main_arg11)) := (Cert.Sage.Host1.keeps_main_arg11 (W2 m ρ c)).trans (W2_arg11 m ρ c)
  have e3 : V3 m ρ c main_arg12 = (m ((c : Thread nD τ).loc main_arg12)) := (Cert.Sage.Host1.keeps_main_arg12 (W2 m ρ c)).trans (W2_arg12 m ρ c)
  show Cert.Sage.affine (N := 40960) (FO := 64) (V3 m ρ c main_v22) (V3 m ρ c main_v41) (V3 m ρ c main_arg11) (V3 m ρ c main_arg12) (V3 m ρ c main_v42) = _
  rw [e0, e1, e2, e3]
  exact (Cert.Sage.Ref1.layer_eq (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (V3 m ρ c main_v42)
    (fun j => (Cert.Sage.Host1.bias_row (W2 m ρ c) j).trans (congrFun (W2_arg13 m ρ c) (ix1 j)))).symm

/-! ## Call 2: the hidden table of the second pass -/

theorem hidden_b (c : Dev nD) :
    W6 m ρ c (Proc.devRef .tc main_v65) = Cert.ReferenceIdeal.Read.val_main_v81 (F := Ideal) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) := by
  refine ((W6_arr m ρ c 5).trans (Cert.Sage.Blocks2.result (V5 m ρ) c)).trans ?_
  have e0 : V5 m ρ c main_v44 = Cert.ReferenceIdeal.Read.val_main_v54 (F := Ideal) (m ((c : Thread nD τ).loc main_arg1)) := by
    have h := Cert.Sage.Host2.own (W4 m ρ c)
    rw [W4_arg1 m ρ c] at h
    exact h
  have e1 : V5 m ρ c main_v63 = Cert.ReferenceIdeal.Read.val_main_v73 (F := Ideal) (m ((c : Thread nD τ).loc main_arg1)) (m ((c : Thread nD τ).loc main_arg4)) (m ((c : Thread nD τ).loc main_arg5)) := by
    have h := Cert.Sage.Host2.mean (W4 m ρ c)
    rw [W4_arg1 m ρ c, W4_arg4 m ρ c, W4_arg5 m ρ c] at h
    exact h
  have e2 : V5 m ρ c main_arg8 = (m ((c : Thread nD τ).loc main_arg8)) := (Cert.Sage.Host2.keeps_main_arg8 (W4 m ρ c)).trans (W4_arg8 m ρ c)
  have e3 : V5 m ρ c main_arg9 = (m ((c : Thread nD τ).loc main_arg9)) := (Cert.Sage.Host2.keeps_main_arg9 (W4 m ρ c)).trans (W4_arg9 m ρ c)
  show Cert.Sage.affineRelu (N := 40960) (FO := 128) (V5 m ρ c main_v44) (V5 m ρ c main_v63) (V5 m ρ c main_arg8) (V5 m ρ c main_arg9) (V5 m ρ c main_v64) = _
  rw [e0, e1, e2, e3]
  exact (Cert.Sage.Ref2.layer_eq (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (V5 m ρ c main_v64)
    (fun j => (Cert.Sage.Host2.bias_row (W4 m ρ c) j).trans (congrFun (W4_arg10 m ρ c) (ix1 j)))).symm

/-! ## Call 3: the second result -/

theorem result_b (c : Dev nD) :
    W8 m ρ c (Proc.devRef .tc main_v87) = Cert.ReferenceIdeal.Read.val_main_v107 (F := Ideal) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W8_arr m ρ c 5).trans (Cert.Sage.Blocks3.result (V7 m ρ) c)).trans ?_
  have e0 : V7 m ρ c main_v66 = Cert.ReferenceIdeal.Read.val_main_v82 (F := Ideal) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) :=
    Cert.Sage.Host3.own (W6 m ρ c) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (hidden_b m ρ c)
  have e1 : V7 m ρ c main_v85 = Cert.ReferenceIdeal.Read.val_main_v101 (F := Ideal) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
    have h := Cert.Sage.Host3.mean (W6 m ρ c) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (hidden_b m ρ c)
    rw [W6_arg6 m ρ c, W6_arg7 m ρ c] at h
    exact h
  have e2 : V7 m ρ c main_arg11 = (m ((c : Thread nD τ).loc main_arg11)) := (Cert.Sage.Host3.keeps_main_arg11 (W6 m ρ c)).trans (W6_arg11 m ρ c)
  have e3 : V7 m ρ c main_arg12 = (m ((c : Thread nD τ).loc main_arg12)) := (Cert.Sage.Host3.keeps_main_arg12 (W6 m ρ c)).trans (W6_arg12 m ρ c)
  show Cert.Sage.affine (N := 4096) (FO := 64) (V7 m ρ c main_v66) (V7 m ρ c main_v85) (V7 m ρ c main_arg11) (V7 m ρ c main_arg12) (V7 m ρ c main_v86) = _
  rw [e0, e1, e2, e3]
  exact (Cert.Sage.Ref3.layer_eq (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (V7 m ρ c main_v86)
    (fun j => (Cert.Sage.Host3.bias_row (W6 m ρ c) j).trans (congrFun (W6_arg13 m ρ c) (ix1 j)))).symm

/-! ## The first result is still there at the end -/

theorem result_a (c : Dev nD) :
    W8 m ρ c (Proc.devRef .tc main_v43) = Cert.ReferenceIdeal.Read.val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  calc W8 m ρ c (Proc.devRef .tc main_v43)
    _ = W7 m ρ c (Proc.devRef .tc main_v43) := W8_of_ne m ρ c main_v43 (by decide)
    _ = W6 m ρ c (Proc.devRef .tc main_v43) := Cert.Sage.Host3.keeps_main_v43 (W6 m ρ c)
    _ = W5 m ρ c (Proc.devRef .tc main_v43) := W6_of_ne m ρ c main_v43 (by decide)
    _ = W4 m ρ c (Proc.devRef .tc main_v43) := Cert.Sage.Host2.keeps_main_v43 (W4 m ρ c)
    _ = _ := result_a_at4 m ρ c

end Cert.Sage.Values

end
-- ==== Proof.lean ====
/-
  A two-layer graph network (mean aggregation over sampled neighbours), run over two stacks of sampled blocks: the kernel
  program against its plain reference, on the extended reals.

  Both programs do the same host work in the same order: for each layer they slice the destination nodes' rows off the
  feature table, gather the source rows, scatter-add them by destination, count the destinations, clamp the count below
  at one and divide. They differ only in the dense step of each layer. The reference forms two whole matrix products,
  adds them, adds the bias and (in the hidden layer) clamps at zero twice; the kernel program walks the rows 4096 at a
  time and, for each block, accumulates the two products from zero, adds them, adds the bias row and clamps once. On the
  extended reals a row of either result is the same sum over the 128 input features — a row of the layer depends only on
  the same row of the inputs, a sum accumulated from zero is the sum, narrowing a float's format is the identity, and
  clamping twice is clamping once — so the four calls' results are the reference's four layer values, the second and the
  fourth being the program's two results. None of this uses that the inputs are finite: the two sides are the same sums in the
  same order, and `0 + x = x` and `max (max x 0) 0 = max x 0` hold for every extended real.

  The three programs' runs (termination, no fault, arguments unchanged) are the generated ones; the idealized kernel is the
  printed kernel read at the extended reals with no rewrite, so that conjunct is trivial.
-/
import proofs.«106127_j85255100826267_1_alg».proof.Defs
import proofs.«106127_j85255100826267_1_alg».proof.Proof.Gen.Kernel
import proofs.«106127_j85255100826267_1_alg».proof.Proof.Gen.Kernel.Frame
import proofs.«106127_j85255100826267_1_alg».proof.Proof.Gen.KernelIdeal
import proofs.«106127_j85255100826267_1_alg».proof.Proof.Gen.KernelIdeal.Frame
import proofs.«106127_j85255100826267_1_alg».proof.Proof.Gen.ReferenceIdeal
import proofs.«106127_j85255100826267_1_alg».proof.Proof.Gen.Pre_finite_inputs
import proofs.«106127_j85255100826267_1_alg».proof.Proof.Gen.ReferenceIdeal.Run
import proofs.«106127_j85255100826267_1_alg».proof.Proof.Gen.ReferenceIdeal.Read
import proofs.«106127_j85255100826267_1_alg».proof.Proof.KernelRun
import proofs.«106127_j85255100826267_1_alg».proof.Proof.Values
import Idealize.ShloMosaic.Adequacy
import Idealize.ShloMosaic.Init

set_option maxRecDepth 16384

noncomputable section

namespace Cert.Proof

open Idealize.ShloMosaic Idealize.SL.Sem

/-- The printed kernel program runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run, its two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel program was rewritten for the reading on the extended reals. -/
theorem preserves : Cert.preserves_Kernel_KernelIdeal := trivial

/-- From memories that agree on the arguments both programs end with the same two results: the kernel program's four
    calls leave the reference's four layer values, of which the fourth and the second are returned. -/
theorem algebraic : Cert.algebraic_KernelIdeal_ReferenceIdeal := by
  intro m ρ m' ρ' _ hagree
  refine ⟨fun c => Cert.ReferenceIdeal.Read.val_main_v107 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact Cert.Sage.KernelRun.run_final m ρ (hQ := fun s h c =>
      ⟨(h c _ (Cert.KernelIdeal.Gen.mem_uc Cert.KernelIdeal.main_v87 (by decide))).trans (Cert.Sage.Values.result_b m ρ c),
       (h c _ (Cert.KernelIdeal.Gen.mem_uc Cert.KernelIdeal.main_v43 (by decide))).trans (Cert.Sage.Values.result_a m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c),
       (h c _ (Cert.KernelIdeal.Gen.mem_uc Cert.KernelIdeal.main_arg6 (by decide))).trans (Cert.KernelIdeal.Gen.W8_main_arg6 m ρ c),
       (h c _ (Cert.KernelIdeal.Gen.mem_uc Cert.KernelIdeal.main_arg7 (by decide))).trans (Cert.KernelIdeal.Gen.W8_main_arg7 m ρ c),
       (h c _ (Cert.KernelIdeal.Gen.mem_uc Cert.KernelIdeal.main_arg8 (by decide))).trans (Cert.KernelIdeal.Gen.W8_main_arg8 m ρ c),
       (h c _ (Cert.KernelIdeal.Gen.mem_uc Cert.KernelIdeal.main_arg9 (by decide))).trans (Cert.KernelIdeal.Gen.W8_main_arg9 m ρ c),
       (h c _ (Cert.KernelIdeal.Gen.mem_uc Cert.KernelIdeal.main_arg10 (by decide))).trans (Cert.KernelIdeal.Gen.W8_main_arg10 m ρ c),
       (h c _ (Cert.KernelIdeal.Gen.mem_uc Cert.KernelIdeal.main_arg11 (by decide))).trans (Cert.KernelIdeal.Gen.W8_main_arg11 m ρ c),
       (h c _ (Cert.KernelIdeal.Gen.mem_uc Cert.KernelIdeal.main_arg12 (by decide))).trans (Cert.KernelIdeal.Gen.W8_main_arg12 m ρ c),
       (h c _ (Cert.KernelIdeal.Gen.mem_uc Cert.KernelIdeal.main_arg13 (by decide))).trans (Cert.KernelIdeal.Gen.W8_main_arg13 m ρ c)⟩)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13⟩ := hagree c
      rw [Cert.ReferenceIdeal.Read.val_main_v107_eq, a1, a4, a5, a6, a7, a8, a9, a10, a11, a12, a13]
    · obtain ⟨a0, a1, a2, a3, a4, a5, a6, a7, a8, a9, a10, a11, a12, a13⟩ := hagree c
      rw [Cert.ReferenceIdeal.Read.val_main_v53_eq, a0, a2, a3, a4, a5, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
